-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S192x40 : Shape := ⟨2, ![192, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S192x40 : S_.BroadcastsInDim S192x40 (![] : Fin 0 → Fin S192x40.rank)
  reducesTo_S192x40_S_d0_1 : S192x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg9 : FVec F S40 .f32) (main_v33 : IVec S_ 1) : IVec S_ 1 :=
  let main_v34 : FVec F S40 .f32 := Host.absf main_arg9
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  main_v38

def fn_part1 {F : FTy → Type} [FloatOps F] (main_arg6 : FVec F S128x64 .f32) (main_arg7 : FVec F S64 .f32) (main_arg8 : FVec F S192x40 .f32) (main_arg9 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S192x40 .f32 := Host.absf main_arg8
  let main_cst_10 : FVec F S_ .f32 := constant S_ .f32 0x7F800000#32
  let main_v30 : FVec F S192x40 .f32 := broadcastInDim S192x40 ![] bcast_S_S192x40 main_cst_10
  let main_v31 : IVec S192x40 1 := cmpf .olt main_v29 main_v30
  let main_c_11 : IVec S_ 1 := constantI S_ 1 1#1
  let main_v32 : IVec S_ 1 := (fun x v => Host.reduce IntOp.andi x v reducesTo_S192x40_S_d0_1 h_S_) main_v31 main_c_11
  let main_v33 : IVec S_ 1 := andi main_v28 main_v32
  fn_part2 (F := F) main_arg9 main_v33

def fn {F : FTy → Type} [FloatOps F] (main_arg0 : FVec F S100000x256 .f32) (main_arg1 : IVec S1600000 32) (main_arg2 : IVec S1600000 32) (main_arg3 : FVec F S1600000 .f32) (main_arg4 : FVec F S256x128 .f32) (main_arg5 : FVec F S128 .f32) (main_arg6 : FVec F S128x64 .f32) (main_arg7 : FVec F S64 .f32) (main_arg8 : FVec F S192x40 .f32) (main_arg9 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S192x40 : Shape := ⟨2, ![192, 40]⟩
abbrev S40 : Shape := ⟨1, ![40]⟩
abbrev S100000x128 : Shape := ⟨2, ![100000, 128]⟩
abbrev S5000x256 : Shape := ⟨2, ![5000, 256]⟩
abbrev S5000x128 : Shape := ⟨2, ![5000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩
abbrev S100000x192 : Shape := ⟨2, ![100000, 192]⟩
abbrev S1x40 : Shape := ⟨2, ![1, 40]⟩
abbrev S100000x40 : Shape := ⟨2, ![100000, 40]⟩
abbrev S5000x192 : Shape := ⟨2, ![5000, 192]⟩
abbrev S5000x40 : Shape := ⟨2, ![5000, 40]⟩
abbrev S5000 : Shape := ⟨1, ![5000]⟩
abbrev S5000x1 : Shape := ⟨2, ![5000, 1]⟩

abbrev nBuf : Space → Nat
  | .hbm => 51
  | .vmem => 26
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S192x40, .f32⟩
  | .hbm, ⟨9, _⟩ => ⟨S40, .f32⟩
  | .hbm, ⟨10, _⟩ => ⟨S100000x128, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S1600000x1, .f32⟩
  | .hbm, ⟨21, _⟩ => ⟨S1600000x128, .f32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S1x128, .f32⟩
  | .hbm, ⟨28, _⟩ => ⟨S100000x128, .f32⟩
  | .hbm, ⟨29, _⟩ => ⟨S100000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S1600000x1, .f32⟩
  | .hbm, ⟨40, _⟩ => ⟨S1600000x64, .f32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S1x64, .f32⟩
  | .hbm, ⟨47, _⟩ => ⟨S100000x64, .f32⟩
  | .hbm, ⟨48, _⟩ => ⟨S100000x192, .f32⟩
  | .hbm, ⟨49, _⟩ => ⟨S1x40, .f32⟩
  | .hbm, ⟨50, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x192, .f32⟩
  | .local _ .vmem, ⟨21, _⟩ => ⟨S5000x192, .f32⟩
  | .local _ .vmem, ⟨22, _⟩ => ⟨S192x40, .f32⟩
  | .local _ .vmem, ⟨23, _⟩ => ⟨S1x40, .f32⟩
  | .local _ .vmem, ⟨24, _⟩ => ⟨S5000x40, .f32⟩
  | .local _ .vmem, ⟨25, _⟩ => ⟨S5000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x192 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S192x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x40 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  concatenates_S100000x64_S100000x128_S100000x192_d1 : Shape.Concatenates [S100000x64, S100000x128] S100000x192 1
  shapeCasts_S40_S1x40 : S40.ShapeCasts S1x40
  inb_S5000x192_S5000x192_0_0 : ∀ a, (![0, 0] : Fin 2 → Nat) a + S5000x192.size a ≤ S5000x192.size a
  h_S5000x192 : 0 < S5000x192.numel
  shapeCasts_S5000x192_S5000x192 : S5000x192.ShapeCasts S5000x192
  inb_S192x40_S192x40_0_0 : ∀ a, (![0, 0] : Fin 2 → Nat) a + S192x40.size a ≤ S192x40.size a
  h_S192x40 : 0 < S192x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x192_S192x40_S5000x40_1_0_0_1_n_n_wf : DotDims.WF S5000x192 S192x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x192.size a ≤ S100000x192.size a
  hwx4_0 : ∀ i : grid4.Coords, EltTy.bits .f32 = 32 ∨ (Rect.block (s := S100000x192) S5000x192.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S192x40.size a ≤ S192x40.size a
  hwx4_1 : ∀ i : grid4.Coords, EltTy.bits .f32 = 32 ∨ (Rect.block (s := S192x40) S192x40.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x40.size a ≤ S1x40.size a
  hwx4_2 : ∀ i : grid4.Coords, EltTy.bits .f32 = 32 ∨ (Rect.block (s := S1x40) S1x40.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x40.size a ≤ S100000x40.size a
  hwx4_3 : ∀ i : grid4.Coords, EltTy.bits .f32 = 32 ∨ (Rect.block (s := S100000x40) S5000x40.size (cc4_transform_3 i) (hinb4_3 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x192_S192x40_S5000x40_1_0_0_1_n_n : DotDims S5000x192 S192x40 S5000x40 where
  lhsContracting := [1]
  rhsContracting := [0]
  lhsNonContracting := [0]
  rhsNonContracting := [1]
  lhsBatch := []
  rhsBatch := []
  wf := dot_S5000x192_S192x40_S5000x40_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v29) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v31) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v32) S5000x192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S192x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v33) S1x40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v34) S5000x40.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S192x40 : Shape := ⟨2, ![192, 40]⟩
abbrev S40 : Shape := ⟨1, ![40]⟩
abbrev S100000x128 : Shape := ⟨2, ![100000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩
abbrev S100000x192 : Shape := ⟨2, ![100000, 192]⟩
abbrev S100000x40 : Shape := ⟨2, ![100000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 76
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S192x40, .f32⟩
  | .hbm, ⟨9, _⟩ => ⟨S40, .f32⟩
  | .hbm, ⟨10, _⟩ => ⟨S100000x128, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S1600000x1, .f32⟩
  | .hbm, ⟨21, _⟩ => ⟨S1600000x128, .f32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S1x128, .f32⟩
  | .hbm, ⟨28, _⟩ => ⟨S100000x128, .f32⟩
  | .hbm, ⟨29, _⟩ => ⟨S100000x128, .f32⟩
  | .hbm, ⟨30, _⟩ => ⟨S_, .f32⟩
  | .hbm, ⟨31, _⟩ => ⟨S100000x128, .f32⟩
  | .hbm, ⟨32, _⟩ => ⟨S100000x128, .f32⟩
  | .hbm, ⟨33, _⟩ => ⟨S100000x64, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .f32⟩
  | .hbm, ⟨43, _⟩ => ⟨S1600000x1, .f32⟩
  | .hbm, ⟨44, _⟩ => ⟨S1600000x64, .f32⟩
  | .hbm, ⟨45, _⟩ => ⟨S1600000x64, .f32⟩
  | .hbm, ⟨46, _⟩ => ⟨S_, .f32⟩
  | .hbm, ⟨47, _⟩ => ⟨S100000x64, .f32⟩
  | .hbm, ⟨48, _⟩ => ⟨S1600000x1, .i32⟩
  | .hbm, ⟨49, _⟩ => ⟨S100000x64, .f32⟩
  | .hbm, ⟨50, _⟩ => ⟨S1x64, .f32⟩
  | .hbm, ⟨51, _⟩ => ⟨S100000x64, .f32⟩
  | .hbm, ⟨52, _⟩ => ⟨S100000x64, .f32⟩
  | .hbm, ⟨53, _⟩ => ⟨S_, .f32⟩
  | .hbm, ⟨54, _⟩ => ⟨S100000x64, .f32⟩
  | .hbm, ⟨55, _⟩ => ⟨S100000x64, .f32⟩
  | .hbm, ⟨56, _⟩ => ⟨S100000x192, .f32⟩
  | .hbm, ⟨57, _⟩ => ⟨S100000x40, .f32⟩
  | .hbm, ⟨58, _⟩ => ⟨S1x40, .f32⟩
  | .hbm, ⟨59, _⟩ => ⟨S100000x40, .f32⟩
  | .hbm, ⟨60, _⟩ => ⟨S100000x40, .f32⟩
  | .hbm, ⟨61, _⟩ => ⟨S_, .f32⟩
  | .hbm, ⟨62, _⟩ => ⟨S100000, .f32⟩
  | .hbm, ⟨63, _⟩ => ⟨S_, .f32⟩
  | .hbm, ⟨64, _⟩ => ⟨S100000, .f32⟩
  | .hbm, ⟨65, _⟩ => ⟨S100000, .f32⟩
  | .hbm, ⟨66, _⟩ => ⟨S100000x1, .f32⟩
  | .hbm, ⟨67, _⟩ => ⟨S100000x40, .f32⟩
  | .hbm, ⟨68, _⟩ => ⟨S100000x40, .f32⟩
  | .hbm, ⟨69, _⟩ => ⟨S100000x40, .f32⟩
  | .hbm, ⟨70, _⟩ => ⟨S_, .f32⟩
  | .hbm, ⟨71, _⟩ => ⟨S100000, .f32⟩
  | .hbm, ⟨72, _⟩ => ⟨S100000x1, .f32⟩
  | .hbm, ⟨73, _⟩ => ⟨S100000x1, .f32⟩
  | .hbm, ⟨74, _⟩ => ⟨S100000x40, .f32⟩
  | .hbm, ⟨75, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_c_1 : Ref sig .tc := ⟨.hbm, 34, rfl⟩
abbrev main_v19 : Ref sig .tc := ⟨.hbm, 35, rfl⟩
abbrev main_v20 : Ref sig .tc := ⟨.hbm, 36, rfl⟩
abbrev main_c_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call1_cst : Ref sig .tc := ⟨.hbm, 53, rfl⟩
abbrev main_call1_v0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call2_cst : Ref sig .tc := ⟨.hbm, 61, rfl⟩
abbrev main_call2_v0 : Ref sig .tc := ⟨.hbm, 62, rfl⟩
abbrev main_call2_cst_0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_v6 : Ref sig .tc := ⟨.hbm, 69, rfl⟩
abbrev main_call2_cst_1 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_v41 : Ref sig .tc := ⟨.hbm, 75, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S100000x64_S100000x128_S100000x192_d1 : Shape.Concatenates [S100000x64, S100000x128] S100000x192 1
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x192_S192x40_S100000x40_1_0_0_1_n_n_wf : DotDims.WF S100000x192 S192x40 S100000x40 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x192_S192x40_S100000x40_1_0_0_1_n_n : DotDims S100000x192 S192x40 S100000x40 where
  lhsContracting := [1]
  rhsContracting := [0]
  lhsNonContracting := [0]
  rhsNonContracting := [1]
  lhsBatch := []
  rhsBatch := []
  wf := dot_S100000x192_S192x40_S100000x40_1_0_0_1_n_n_wf

class Facts : Prop extends Facts₀ where

variable [Facts]
-- ==== Proof.KernelRun.lean ====
/-
  The run of the idealized kernel with its RESULT read: every weakly fair execution of @main terminates, nothing
  faulting, with the result buffer at what the last region's write-backs leave in it (the fold `W8` of the five
  regions and the three host stretches over the launch memory) and the argument arrays as launched.  The launch is
  the several-region launch theorem over the segments of @main, with the final thread state read at the result
  buffer as well as at the arguments.
-/
import proofs.«169921_j22385369546848_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result read: the final state has the result buffer at `W8` and the arguments as launched. -/
theorem run_result : θ_run defs (onTc (τ := τ) (main (F := F))) ⟨m, fun _ => 0, ρ⟩ (fun r => ∀ c : Dev nD,
      r.2.mem ((c.tc : Thread nD τ).loc main_v34) = W8 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v34 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.Run

end
-- ==== Proof.Spec.lean ====
/-
  The mathematics both programs compute, stated once, index by index, over the extended reals.

  A two-layer graph convolution followed by a linear classifier and a row-wise log-softmax.  The edge
  aggregation (gather the source rows, scale by the edge weight, scatter-add to the destination rows) is the
  same host computation in both programs and is never opened; what differs is how the three dense stages are
  computed, and these are the three functions below:

  * `matMul`: the product of an [n, k] array with a [k, p] array, entry (r, c) the sum over j of A(r, j) · B(j, c);
  * `biasRelu`: a row vector b (stored as a [1, d] array) added to every row of A, then the maximum with 0;
  * `linLogSoftmax`: logits = C · W + b, and then, row by row, z = logits − max(row), result z − log Σ exp z.
-/
import Idealize.ShloMosaic.PureOps.Ideal
import Idealize.ShloMosaic.Lib.ValueIdx

noncomputable section

namespace Cert.Spec

open Idealize.ShloMosaic Idealize.ShloMosaic.ValueIdx

/-- The matrix product, entry by entry: (A · B)(r, c) = Σ_j A(r, j) · B(j, c). -/
def matMul {n k p : Nat} (A : (⟨2, ![n, k]⟩ : Shape).Idx → EReal) (B : (⟨2, ![k, p]⟩ : Shape).Idx → EReal) :
    (⟨2, ![n, p]⟩ : Shape).Idx → EReal :=
  fun i => ∑ j : Fin k, A (ix2 (i 0) j) * B (ix2 j (i 1))

/-- A row vector (a [1, d] array) added to every row, then the positive part: max (A(r, c) + b(0, c)) 0. -/
def biasRelu {n d : Nat} (A : (⟨2, ![n, d]⟩ : Shape).Idx → EReal) (b : (⟨2, ![1, d]⟩ : Shape).Idx → EReal) :
    (⟨2, ![n, d]⟩ : Shape).Idx → EReal :=
  fun i => max (A i + b (ix2 (0 : Fin 1) (i 1))) 0

/-- The logits of the classifier: (C · W)(r, c) + b(0, c). -/
def logits {n k p : Nat} (C : (⟨2, ![n, k]⟩ : Shape).Idx → EReal) (W : (⟨2, ![k, p]⟩ : Shape).Idx → EReal)
    (b : (⟨2, ![1, p]⟩ : Shape).Idx → EReal) : (⟨2, ![n, p]⟩ : Shape).Idx → EReal :=
  fun i => matMul C W i + b (ix2 (0 : Fin 1) (i 1))

/-- The largest entry of a row of `L`, as a fold of `max` from `bot` (the value of the pattern −∞). -/
def rowMax {n p : Nat} (bot : EReal) (L : (⟨2, ![n, p]⟩ : Shape).Idx → EReal) (r : Fin n) : EReal :=
  (Finset.univ : Finset (Fin p)).fold max bot fun q => L (ix2 r q)

/-- A row-wise log-softmax of `L`: with z = L − rowMax, the entry is z − log Σ_q exp z(r, q). -/
def logSoftmax {n p : Nat} (bot : EReal) (L : (⟨2, ![n, p]⟩ : Shape).Idx → EReal) : (⟨2, ![n, p]⟩ : Shape).Idx → EReal :=
  fun i => (L i - rowMax bot L (i 0)) - Ideal.log (∑ q : Fin p, Ideal.exp (L (ix2 (i 0) q) - rowMax bot L (i 0)))

/-- The classifier's output: the row-wise log-softmax of the logits. -/
def linLogSoftmax {n k p : Nat} (bot : EReal) (C : (⟨2, ![n, k]⟩ : Shape).Idx → EReal) (W : (⟨2, ![k, p]⟩ : Shape).Idx → EReal)
    (b : (⟨2, ![1, p]⟩ : Shape).Idx → EReal) : (⟨2, ![n, p]⟩ : Shape).Idx → EReal :=
  logSoftmax bot (logits C W b)

end Cert.Spec

end
-- ==== Proof.Layers.lean ====
/-
  The network both programs compute, as one function of the ten argument arrays, built from the three dense stages of
  `Spec` and the host operations the two programs share (the edge aggregation, the join of the two hidden layers'
  features, a bias vector seen as a one-row array):

    h1  = biasRelu (aggregate (x · w1)) b1
    h2  = biasRelu (aggregate (h1 · w2)) b2
    out = log-softmax of ((h2 | h1) · wl + bl), row by row.
-/
import proofs.«169921_j22385369546848_1_alg».proof.Proof.Gen.KernelIdeal
import proofs.«169921_j22385369546848_1_alg».proof.Proof.Spec

noncomputable section

namespace Cert.KernelIdeal.Layers

open Cert.KernelIdeal Cert.KernelIdeal.Facts₀ Idealize.ShloMosaic Idealize.ShloMosaic.TcCoe Idealize.SL.Sem

/-- The edge aggregation of a [100000, 128] array of node rows: gather the row of each edge's source node (a negative
    node number wrapped by 100000 first), scale it by the edge's weight, and add it into the row of the edge's
    destination node, starting from zero.  Both programs compute it with these same host operations. -/
def aggregate128 (s : (⟨S100000x128, .f32⟩ : BufTy).Contents (Elt Ideal)) (row col : (⟨S1600000, .i32⟩ : BufTy).Contents (Elt Ideal)) (val : (⟨S1600000, .f32⟩ : BufTy).Contents (Elt Ideal)) : (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 row)
    (mulf (F := Ideal) (Host.gather gather_S100000x128_S1600000x1_S1600000x128_1_0_n_n_0_1_1128 s
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col)))
      (broadcastInDim S1600000x128 ![0, 1] bcast_S1600000x1_S1600000x128_0_1 (broadcastInDim S1600000x1 ![0] bcast_S1600000_S1600000x1_0 val)))

/-- The edge aggregation of a [100000, 64] array of node rows: gather the row of each edge's source node (a negative
    node number wrapped by 100000 first), scale it by the edge's weight, and add it into the row of the edge's
    destination node, starting from zero.  Both programs compute it with these same host operations. -/
def aggregate64 (s : (⟨S100000x64, .f32⟩ : BufTy).Contents (Elt Ideal)) (row col : (⟨S1600000, .i32⟩ : BufTy).Contents (Elt Ideal)) (val : (⟨S1600000, .f32⟩ : BufTy).Contents (Elt Ideal)) : (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 row)
    (mulf (F := Ideal) (Host.gather gather_S100000x64_S1600000x1_S1600000x64_1_0_n_n_0_1_164 s
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col)))
      (broadcastInDim S1600000x64 ![0, 1] bcast_S1600000x1_S1600000x64_0_1 (broadcastInDim S1600000x1 ![0] bcast_S1600000_S1600000x1_0 val)))

/-- A bias vector of length 128 as a one-row array. -/
def biasRow128 (b : (⟨S128, .f32⟩ : BufTy).Contents (Elt Ideal)) : (⟨S1x128, .f32⟩ : BufTy).Contents (Elt Ideal) := shapeCast S1x128 b shapeCasts_S128_S1x128
/-- A bias vector of length 64 as a one-row array. -/
def biasRow64 (b : (⟨S64, .f32⟩ : BufTy).Contents (Elt Ideal)) : (⟨S1x64, .f32⟩ : BufTy).Contents (Elt Ideal) := shapeCast S1x64 b shapeCasts_S64_S1x64
/-- A bias vector of length 40 as a one-row array. -/
def biasRow40 (b : (⟨S40, .f32⟩ : BufTy).Contents (Elt Ideal)) : (⟨S1x40, .f32⟩ : BufTy).Contents (Elt Ideal) := shapeCast S1x40 b shapeCasts_S40_S1x40

/-- The features the classifier reads: the second hidden layer's 64 columns, then the first's 128. -/
def joinFeatures (a : (⟨S100000x64, .f32⟩ : BufTy).Contents (Elt Ideal)) (b : (⟨S100000x128, .f32⟩ : BufTy).Contents (Elt Ideal)) : (⟨S100000x192, .f32⟩ : BufTy).Contents (Elt Ideal) :=
  concatenate S100000x192 1 [⟨S100000x64, a⟩, ⟨S100000x128, b⟩] concatenates_S100000x64_S100000x128_S100000x192_d1

/-- The value of the pattern the row maximum starts from (the float −∞). -/
abbrev bot : EReal := Ideal.ofBits .f32 0xFF800000#32

variable (x : (⟨S100000x256, .f32⟩ : BufTy).Contents (Elt Ideal)) (row col : (⟨S1600000, .i32⟩ : BufTy).Contents (Elt Ideal)) (val : (⟨S1600000, .f32⟩ : BufTy).Contents (Elt Ideal))
  (w1 : (⟨S256x128, .f32⟩ : BufTy).Contents (Elt Ideal)) (b1 : (⟨S128, .f32⟩ : BufTy).Contents (Elt Ideal)) (w2 : (⟨S128x64, .f32⟩ : BufTy).Contents (Elt Ideal)) (b2 : (⟨S64, .f32⟩ : BufTy).Contents (Elt Ideal))
  (wl : (⟨S192x40, .f32⟩ : BufTy).Contents (Elt Ideal)) (bl : (⟨S40, .f32⟩ : BufTy).Contents (Elt Ideal))

/-- The first hidden layer. -/
def hidden1 : (⟨S100000x128, .f32⟩ : BufTy).Contents (Elt Ideal) :=
  Cert.Spec.biasRelu (n := 100000) (d := 128) (aggregate128 (Cert.Spec.matMul (n := 100000) (k := 256) (p := 128) x w1) row col val) (biasRow128 b1)

/-- The second hidden layer. -/
def hidden2 : (⟨S100000x64, .f32⟩ : BufTy).Contents (Elt Ideal) :=
  Cert.Spec.biasRelu (n := 100000) (d := 64)
    (aggregate64 (Cert.Spec.matMul (n := 100000) (k := 128) (p := 64) (hidden1 x row col val w1 b1) w2) row col val) (biasRow64 b2)

/-- The network's output. -/
def network : (⟨S100000x40, .f32⟩ : BufTy).Contents (Elt Ideal) :=
  Cert.Spec.linLogSoftmax (n := 100000) (k := 192) (p := 40) bot
    (joinFeatures (hidden2 x row col val w1 b1 w2 b2) (hidden1 x row col val w1 b1)) wl (biasRow40 bl)

end Cert.KernelIdeal.Layers

end
-- ==== Proof.MatMul0.lean ====
import proofs.«169921_j22385369546848_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«169921_j22385369546848_1_alg».proof.Proof.Spec

set_option maxRecDepth 16384

noncomputable section

namespace Cert.KernelIdeal.MatMul0

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem zeroOrigin : (![0, 0] : Fin 2 → Nat) = fun _ => 0 := funext fun a => by fin_cases a <;> rfl

/-- The row coordinate of the left operand's entry that meets output entry `i` is `i`'s row. -/
theorem lhs_row (i : S5000x128.Idx) (k : dot_S5000x256_S256x128_S5000x128_1_0_0_1_n_n.contr.Idx) : (dot_S5000x256_S256x128_S5000x128_1_0_0_1_n_n.lhsIdx i k 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl

/-- The column coordinate of the right operand's entry that meets output entry `i` is `i`'s column. -/
theorem rhs_col (i : S5000x128.Idx) (k : dot_S5000x256_S256x128_S5000x128_1_0_0_1_n_n.contr.Idx) : (dot_S5000x256_S256x128_S5000x128_1_0_0_1_n_n.rhsIdx i k 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The body's arithmetic at one entry of a block: the change of float format is the identity on the extended reals and
    the product into a zero accumulator is the plain sum over the contracted axis. -/
theorem payload_apply (x0 : Vec Ideal S5000x256 .f32) (x1 : Vec Ideal S256x128 .f32) (p : Fin 5000) (q : Fin 128) :
    k0_pay1 (F := Ideal) x0 x1 (ix2 p q) = ∑ k : Fin 256, x0 (ix2 p k) * x1 (ix2 k q) := by
  unfold k0_pay1
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ => exact lhs_row _ _
    | ⟨1, _⟩ => exact (dot_S5000x256_S256x128_S5000x128_1_0_0_1_n_n.lhsIdx_val_of_single rfl _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (dot_S5000x256_S256x128_S5000x128_1_0_0_1_n_n.rhsIdx_val_of_single rfl _ _).trans hk
    | ⟨1, _⟩ => exact rhs_col _ _)
  rw [truncf_apply, truncf_apply, el, er]

/-- An entry of a block against the entry of the whole product it sits at: when row `p` of the left block is row
    `i 0` of `A` and the right block is `B`, the body computes `(A · B) i`. -/
theorem payload_at (x0 : Vec Ideal S5000x256 .f32) (x1 : Vec Ideal S256x128 .f32)
    (A : S100000x256.Idx → EReal) (B : S256x128.Idx → EReal) (i : S100000x128.Idx) (p : Fin 5000) (q : Fin 128)
    (h0 : ∀ k : Fin 256, x0 (ix2 p k) = A (ix2 (i 0) k)) (h1 : ∀ k : Fin 256, x1 (ix2 k q) = B (ix2 k (i 1))) :
    k0_pay1 (F := Ideal) x0 x1 (ix2 p q) = Cert.Spec.matMul A B i := by
  rw [payload_apply]
  unfold Cert.Spec.matMul
  exact Finset.sum_congr rfl fun k _ => by rw [h0 k, h1 k]

/-- Where the windows sit: at grid point `t` the left operand's rows and the output rows are block `t` of their arrays
    (5000 rows each); the right operand is always whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point `t` writes back is block `t` of the product of the two arrays as the region finds them. -/
theorem flushed_eq (c : Dev nD) (t : Fin cfg0.N) :
    (dat0 V c).flushed 2 t = ((cfg0.win 2).blk t).view.read (Elt Ideal)
      (Cert.Spec.matMul (n := 100000) (k := 256) (p := 128) (V c main_arg0) (V c main_arg4)) := by
  show (cfg0.win 2).cut (grid0.coords t) ((dat0 V c).after 2 t) = _
  rw [after0_2]
  unfold out0_2
  rw [View.canon_unit_zero zeroOrigin]
  simp only [View.ld_unit_zero (S := S5000x256) zeroOrigin, View.ld_unit_zero (S := S256x128) zeroOrigin]
  obtain ⟨e0, e1, e2, e3, e4, e5⟩ := idx_facts t
  funext j
  have hj : j = ix2 (j 0) (j 1) := eq_ix2 j
  have hj0 : (j 0).val < 5000 := (j 0).isLt
  have hj1 : (j 1).val < 128 := (j 1).isLt
  show k0_pay1 (F := Ideal) (iblk0 V c 0 t) (iblk0 V c 1 t) j
      = Cert.Spec.matMul (n := 100000) (k := 256) (p := 128) (V c main_arg0) (V c main_arg4) (((cfg0.win 2).blk t).view.emb j)
  rw [hj]
  refine payload_at _ _ _ _ _ _ _ (fun k => ?_) (fun k => ?_)
  · show V c main_arg0 (((cfg0.win 0).blk t).view.emb (ix2 (j 0) k)) = V c main_arg0 _
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  · show V c main_arg4 (((cfg0.win 1).blk t).view.emb (ix2 k (j 1))) = V c main_arg4 _
    refine congrArg _ (funext fun a => Fin.ext ?_)
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- The twenty blocks of 5000 rows tile the 100000 rows: row `r` is in block `r / 5000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨e0, e1, e2, e3, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region: the product of the two input arrays as the region finds them. -/
theorem final (c : Dev nD) :
    (dat0 V c).arrAt 2 cfg0.N = Cert.Spec.matMul (n := 100000) (k := 256) (p := 128) (V c main_arg0) (V c main_arg4) :=
  (dat0 V c).arrAt_eq_of_cover 2 _ (fun t _ => flushed_eq V c t) cover

end Cert.KernelIdeal.MatMul0

end
-- ==== Proof.BiasRelu1.lean ====
import proofs.«169921_j22385369546848_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«169921_j22385369546848_1_alg».proof.Proof.Spec

set_option maxRecDepth 16384

noncomputable section

namespace Cert.KernelIdeal.BiasRelu1

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem zeroOrigin : (![0, 0] : Fin 2 → Nat) = fun _ => 0 := funext fun a => by fin_cases a <;> rfl

/-- The body's arithmetic at one entry of a block: the row entry plus the bias of its column, then the positive part. -/
theorem payload_apply (x0 : Vec Ideal S5000x128 .f32) (x1 : Vec Ideal S1x128 .f32) (p : Fin 5000) (q : Fin 128) :
    k1_pay1 (F := Ideal) x0 x1 (ix2 p q) = max (x0 (ix2 p q) + x1 (ix2 (0 : Fin 1) q)) 0 := by
  unfold k1_pay1
  rw [maximumf_apply, addf_apply, shapeCast_self, shapeCast_self, broadcastTo_1b_ab_apply, broadcast_apply]
  show max _ (Ideal.ofBits .f32 0x00000000#32) = _
  rw [Ideal.ofBits_zero_f32]

/-- An entry of a block against the entry of the whole array it sits at: when the block's row entry is the array's
    entry `i` and the bias block's column is `i`'s column, the body computes `biasRelu` at `i`. -/
theorem payload_at (x0 : Vec Ideal S5000x128 .f32) (x1 : Vec Ideal S1x128 .f32)
    (A : S100000x128.Idx → EReal) (b : S1x128.Idx → EReal) (i : S100000x128.Idx) (p : Fin 5000) (q : Fin 128)
    (h0 : x0 (ix2 p q) = A i) (h1 : x1 (ix2 (0 : Fin 1) q) = b (ix2 (0 : Fin 1) (i 1))) :
    k1_pay1 (F := Ideal) x0 x1 (ix2 p q) = Cert.Spec.biasRelu A b i := by
  rw [payload_apply, h0, h1]; rfl

/-- Where the windows sit: at grid point `t` the input rows and the output rows are block `t` of their arrays (5000
    rows each), and the bias row is always the one block of its array. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point `t` writes back is block `t` of `biasRelu` of the two arrays as the region finds them. -/
theorem flushed_eq (c : Dev nD) (t : Fin cfg1.N) :
    (dat1 V c).flushed 2 t = ((cfg1.win 2).blk t).view.read (Elt Ideal)
      (Cert.Spec.biasRelu (n := 100000) (d := 128) (V c main_v13) (V c main_v14)) := by
  show (cfg1.win 2).cut (grid1.coords t) ((dat1 V c).after 2 t) = _
  rw [after1_2]
  unfold out1_2
  rw [View.canon_unit_zero zeroOrigin]
  simp only [View.ld_unit_zero (S := S5000x128) zeroOrigin, View.ld_unit_zero (S := S1x128) zeroOrigin]
  obtain ⟨e0, e1, e2, e3, e4, e5⟩ := idx_facts t
  funext j
  have hj : j = ix2 (j 0) (j 1) := eq_ix2 j
  have hj0 : (j 0).val < 5000 := (j 0).isLt
  have hj1 : (j 1).val < 128 := (j 1).isLt
  show k1_pay1 (F := Ideal) (iblk1 V c 0 t) (iblk1 V c 1 t) j
      = Cert.Spec.biasRelu (n := 100000) (d := 128) (V c main_v13) (V c main_v14) (((cfg1.win 2).blk t).view.emb j)
  rw [hj]
  refine payload_at _ _ _ _ _ _ _ ?_ ?_
  · show V c main_v13 (((cfg1.win 0).blk t).view.emb (ix2 (j 0) (j 1))) = V c main_v13 (((cfg1.win 2).blk t).view.emb (ix2 (j 0) (j 1)))
    refine congrArg _ (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  · show V c main_v14 (((cfg1.win 1).blk t).view.emb (ix2 (0 : Fin 1) (j 1))) = V c main_v14 _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega

/-- An index of the output array is in point `t`'s block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v15).slice (win1_2.rect t)).set ↔ _
  rw [View.set_slice_whole, Rect.mem_set_unit]
  exact Iff.rfl

/-- The twenty blocks of 5000 rows tile the 100000 rows: row `r` is in block `r / 5000`. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨e0, e1, e2, e3, e4, e5⟩ := idx_facts t
  have ht : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after the region: `biasRelu` of the two input arrays as the region finds them. -/
theorem final (c : Dev nD) :
    (dat1 V c).arrAt 2 cfg1.N = Cert.Spec.biasRelu (n := 100000) (d := 128) (V c main_v13) (V c main_v14) :=
  (dat1 V c).arrAt_eq_of_cover 2 _ (fun t _ => flushed_eq V c t) cover

end Cert.KernelIdeal.BiasRelu1

end
-- ==== Proof.MatMul2.lean ====
import proofs.«169921_j22385369546848_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«169921_j22385369546848_1_alg».proof.Proof.Spec

set_option maxRecDepth 16384

noncomputable section

namespace Cert.KernelIdeal.MatMul2

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem zeroOrigin : (![0, 0] : Fin 2 → Nat) = fun _ => 0 := funext fun a => by fin_cases a <;> rfl

/-- The row coordinate of the left operand's entry that meets output entry `i` is `i`'s row. -/
theorem lhs_row (i : S5000x64.Idx) (k : dot_S5000x128_S128x64_S5000x64_1_0_0_1_n_n.contr.Idx) : (dot_S5000x128_S128x64_S5000x64_1_0_0_1_n_n.lhsIdx i k 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl

/-- The column coordinate of the right operand's entry that meets output entry `i` is `i`'s column. -/
theorem rhs_col (i : S5000x64.Idx) (k : dot_S5000x128_S128x64_S5000x64_1_0_0_1_n_n.contr.Idx) : (dot_S5000x128_S128x64_S5000x64_1_0_0_1_n_n.rhsIdx i k 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's arithmetic at one entry of a block: the change of float format is the identity on the extended reals and
    the product into a zero accumulator is the plain sum over the contracted axis. -/
theorem payload_apply (x0 : Vec Ideal S5000x128 .f32) (x1 : Vec Ideal S128x64 .f32) (p : Fin 5000) (q : Fin 64) :
    k2_pay1 (F := Ideal) x0 x1 (ix2 p q) = ∑ k : Fin 128, x0 (ix2 p k) * x1 (ix2 k q) := by
  unfold k2_pay1
  simp only [matmul, shapeCast_self]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs_row _ _
    | ⟨1, _⟩ => exact (dot_S5000x128_S128x64_S5000x64_1_0_0_1_n_n.lhsIdx_val_of_single rfl _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (dot_S5000x128_S128x64_S5000x64_1_0_0_1_n_n.rhsIdx_val_of_single rfl _ _).trans hk
    | ⟨1, _⟩ => exact rhs_col _ _)
  rw [truncf_apply, truncf_apply, el, er]

/-- An entry of a block against the entry of the whole product it sits at: when row `p` of the left block is row
    `i 0` of `A` and the right block is `B`, the body computes `(A · B) i`. -/
theorem payload_at (x0 : Vec Ideal S5000x128 .f32) (x1 : Vec Ideal S128x64 .f32)
    (A : S100000x128.Idx → EReal) (B : S128x64.Idx → EReal) (i : S100000x64.Idx) (p : Fin 5000) (q : Fin 64)
    (h0 : ∀ k : Fin 128, x0 (ix2 p k) = A (ix2 (i 0) k)) (h1 : ∀ k : Fin 128, x1 (ix2 k q) = B (ix2 k (i 1))) :
    k2_pay1 (F := Ideal) x0 x1 (ix2 p q) = Cert.Spec.matMul A B i := by
  rw [payload_apply]
  unfold Cert.Spec.matMul
  exact Finset.sum_congr rfl fun k _ => by rw [h0 k, h1 k]

/-- Where the windows sit: at grid point `t` the left operand's rows and the output rows are block `t` of their arrays
    (5000 rows each); the right operand is always whole. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point `t` writes back is block `t` of the product of the two arrays as the region finds them. -/
theorem flushed_eq (c : Dev nD) (t : Fin cfg2.N) :
    (dat2 V c).flushed 2 t = ((cfg2.win 2).blk t).view.read (Elt Ideal)
      (Cert.Spec.matMul (n := 100000) (k := 128) (p := 64) (V c main_v15) (V c main_arg6)) := by
  show (cfg2.win 2).cut (grid2.coords t) ((dat2 V c).after 2 t) = _
  rw [after2_2]
  unfold out2_2
  rw [View.canon_unit_zero zeroOrigin]
  simp only [View.ld_unit_zero (S := S5000x128) zeroOrigin, View.ld_unit_zero (S := S128x64) zeroOrigin]
  obtain ⟨e0, e1, e2, e3, e4, e5⟩ := idx_facts t
  funext j
  have hj : j = ix2 (j 0) (j 1) := eq_ix2 j
  have hj0 : (j 0).val < 5000 := (j 0).isLt
  have hj1 : (j 1).val < 64 := (j 1).isLt
  show k2_pay1 (F := Ideal) (iblk2 V c 0 t) (iblk2 V c 1 t) j
      = Cert.Spec.matMul (n := 100000) (k := 128) (p := 64) (V c main_v15) (V c main_arg6) (((cfg2.win 2).blk t).view.emb j)
  rw [hj]
  refine payload_at _ _ _ _ _ _ _ (fun k => ?_) (fun k => ?_)
  · show V c main_v15 (((cfg2.win 0).blk t).view.emb (ix2 (j 0) k)) = V c main_v15 _
    refine congrArg _ (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  · show V c main_arg6 (((cfg2.win 1).blk t).view.emb (ix2 k (j 1))) = V c main_arg6 _
    refine congrArg _ (funext fun a => Fin.ext ?_)
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega

/-- An index of the output array is in point `t`'s block iff each coordinate is in the block's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v16).slice (win2_2.rect t)).set ↔ _
  rw [View.set_slice_whole, Rect.mem_set_unit]
  exact Iff.rfl

/-- The twenty blocks of 5000 rows tile the 100000 rows: row `r` is in block `r / 5000`. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  obtain ⟨e0, e1, e2, e3, e4, e5⟩ := idx_facts t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The output array after the region: the product of the two input arrays as the region finds them. -/
theorem final (c : Dev nD) :
    (dat2 V c).arrAt 2 cfg2.N = Cert.Spec.matMul (n := 100000) (k := 128) (p := 64) (V c main_v15) (V c main_arg6) :=
  (dat2 V c).arrAt_eq_of_cover 2 _ (fun t _ => flushed_eq V c t) cover

end Cert.KernelIdeal.MatMul2

end
-- ==== Proof.BiasRelu3.lean ====
import proofs.«169921_j22385369546848_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«169921_j22385369546848_1_alg».proof.Proof.Spec

set_option maxRecDepth 16384

noncomputable section

namespace Cert.KernelIdeal.BiasRelu3

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem zeroOrigin : (![0, 0] : Fin 2 → Nat) = fun _ => 0 := funext fun a => by fin_cases a <;> rfl

/-- The body's arithmetic at one entry of a block: the row entry plus the bias of its column, then the positive part. -/
theorem payload_apply (x0 : Vec Ideal S5000x64 .f32) (x1 : Vec Ideal S1x64 .f32) (p : Fin 5000) (q : Fin 64) :
    k3_pay1 (F := Ideal) x0 x1 (ix2 p q) = max (x0 (ix2 p q) + x1 (ix2 (0 : Fin 1) q)) 0 := by
  unfold k3_pay1
  rw [maximumf_apply, addf_apply, shapeCast_self, shapeCast_self, broadcastTo_1b_ab_apply, broadcast_apply]
  show max _ (Ideal.ofBits .f32 0x00000000#32) = _
  rw [Ideal.ofBits_zero_f32]

/-- An entry of a block against the entry of the whole array it sits at: when the block's row entry is the array's
    entry `i` and the bias block's column is `i`'s column, the body computes `biasRelu` at `i`. -/
theorem payload_at (x0 : Vec Ideal S5000x64 .f32) (x1 : Vec Ideal S1x64 .f32)
    (A : S100000x64.Idx → EReal) (b : S1x64.Idx → EReal) (i : S100000x64.Idx) (p : Fin 5000) (q : Fin 64)
    (h0 : x0 (ix2 p q) = A i) (h1 : x1 (ix2 (0 : Fin 1) q) = b (ix2 (0 : Fin 1) (i 1))) :
    k3_pay1 (F := Ideal) x0 x1 (ix2 p q) = Cert.Spec.biasRelu A b i := by
  rw [payload_apply, h0, h1]; rfl

/-- Where the windows sit: at grid point `t` the input rows and the output rows are block `t` of their arrays (5000
    rows each), and the bias row is always the one block of its array. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point `t` writes back is block `t` of `biasRelu` of the two arrays as the region finds them. -/
theorem flushed_eq (c : Dev nD) (t : Fin cfg3.N) :
    (dat3 V c).flushed 2 t = ((cfg3.win 2).blk t).view.read (Elt Ideal)
      (Cert.Spec.biasRelu (n := 100000) (d := 64) (V c main_v29) (V c main_v30)) := by
  show (cfg3.win 2).cut (grid3.coords t) ((dat3 V c).after 2 t) = _
  rw [after3_2]
  unfold out3_2
  rw [View.canon_unit_zero zeroOrigin]
  simp only [View.ld_unit_zero (S := S5000x64) zeroOrigin, View.ld_unit_zero (S := S1x64) zeroOrigin]
  obtain ⟨e0, e1, e2, e3, e4, e5⟩ := idx_facts t
  funext j
  have hj : j = ix2 (j 0) (j 1) := eq_ix2 j
  have hj0 : (j 0).val < 5000 := (j 0).isLt
  have hj1 : (j 1).val < 64 := (j 1).isLt
  show k3_pay1 (F := Ideal) (iblk3 V c 0 t) (iblk3 V c 1 t) j
      = Cert.Spec.biasRelu (n := 100000) (d := 64) (V c main_v29) (V c main_v30) (((cfg3.win 2).blk t).view.emb j)
  rw [hj]
  refine payload_at _ _ _ _ _ _ _ ?_ ?_
  · show V c main_v29 (((cfg3.win 0).blk t).view.emb (ix2 (j 0) (j 1))) = V c main_v29 (((cfg3.win 2).blk t).view.emb (ix2 (j 0) (j 1)))
    refine congrArg _ (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * (j 1).val = win3_2.index t (1 : Fin 2) * 64 + 1 * (j 1).val; omega
  · show V c main_v30 (((cfg3.win 1).blk t).view.emb (ix2 (0 : Fin 1) (j 1))) = V c main_v30 _
    refine congrArg _ (funext fun a => Fin.ext ?_)
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega

/-- An index of the output array is in point `t`'s block iff each coordinate is in the block's range on its axis. -/
theorem mem_blk (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v31).slice (win3_2.rect t)).set ↔ _
  rw [View.set_slice_whole, Rect.mem_set_unit]
  exact Iff.rfl

/-- The twenty blocks of 5000 rows tile the 100000 rows: row `r` is in block `r / 5000`. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  let t : Fin cfg3.N := ⟨(i 0).val / 5000, by rw [hN]; omega⟩
  obtain ⟨e0, e1, e2, e3, e4, e5⟩ := idx_facts t
  have ht : t.val = (i 0).val / 5000 := rfl
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- The output array after the region: `biasRelu` of the two input arrays as the region finds them. -/
theorem final (c : Dev nD) :
    (dat3 V c).arrAt 2 cfg3.N = Cert.Spec.biasRelu (n := 100000) (d := 64) (V c main_v29) (V c main_v30) :=
  (dat3 V c).arrAt_eq_of_cover 2 _ (fun t _ => flushed_eq V c t) cover

end Cert.KernelIdeal.BiasRelu3

end
-- ==== Proof.SpecLaws.lean ====
/-
  Two facts about the row-wise log-softmax and the matrix product of `Spec`: an entry depends only on its own row.
  So a block of rows can be computed from that block alone, which is what a kernel tiled over the rows does.
-/
import proofs.«169921_j22385369546848_1_alg».proof.Proof.Spec

noncomputable section

namespace Cert.Spec

open Idealize.ShloMosaic Idealize.ShloMosaic.ValueIdx

/-- The log-softmax of row `r` of `L` is the log-softmax of row `r'` of `L'` when the two rows are equal:
    both the row maximum and the sum of exponentials read that row only. -/
theorem logSoftmax_congr_row {n n' p : Nat} (bot : EReal) (L : (⟨2, ![n, p]⟩ : Shape).Idx → EReal)
    (L' : (⟨2, ![n', p]⟩ : Shape).Idx → EReal) (r : Fin n) (r' : Fin n') (h : ∀ q : Fin p, L (ix2 r q) = L' (ix2 r' q)) (q : Fin p) :
    logSoftmax bot L (ix2 r q) = logSoftmax bot L' (ix2 r' q) := by
  have hm : rowMax bot L r = rowMax bot L' r' := by
    unfold rowMax
    exact congrArg (fun f => (Finset.univ : Finset (Fin p)).fold max bot f) (funext h)
  show (L (ix2 r q) - rowMax bot L r) - Ideal.log (∑ q' : Fin p, Ideal.exp (L (ix2 r q') - rowMax bot L r))
     = (L' (ix2 r' q) - rowMax bot L' r') - Ideal.log (∑ q' : Fin p, Ideal.exp (L' (ix2 r' q') - rowMax bot L' r'))
  rw [hm, h q]
  exact congrArg (fun s => (L' (ix2 r' q) - rowMax bot L' r') - Ideal.log s)
    (Finset.sum_congr rfl fun q' _ => by rw [h q'])

/-- An entry of the logits reads one row of the left operand: equal rows give equal logits. -/
theorem logits_congr_row {n n' k p : Nat} (C : (⟨2, ![n, k]⟩ : Shape).Idx → EReal) (C' : (⟨2, ![n', k]⟩ : Shape).Idx → EReal)
    (W : (⟨2, ![k, p]⟩ : Shape).Idx → EReal) (b : (⟨2, ![1, p]⟩ : Shape).Idx → EReal) (r : Fin n) (r' : Fin n')
    (h : ∀ j : Fin k, C (ix2 r j) = C' (ix2 r' j)) (q : Fin p) :
    logits C W b (ix2 r q) = logits C' W b (ix2 r' q) := by
  show (∑ j : Fin k, C (ix2 r j) * W (ix2 j q)) + b (ix2 (0 : Fin 1) q) = (∑ j : Fin k, C' (ix2 r' j) * W (ix2 j q)) + b (ix2 (0 : Fin 1) q)
  exact congrArg (· + b (ix2 (0 : Fin 1) q)) (Finset.sum_congr rfl fun j _ => by rw [h j])

end Cert.Spec

end
-- ==== Proof.LibKeepdims.lean ====
/-
  Two layout operations read at an index, in the keepdims column forms: a vector of length a seen as an [a, 1]
  column, and an [a, 1] column spread over the b columns of an [a, b] array.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An `[a]` array cast to an `[a, 1]` column reads, at `(i, u)`, the operand at `i`, whatever the unit coordinate `u`:
    the two indices have the same row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Classifier4.lean ====
import proofs.«169921_j22385369546848_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«169921_j22385369546848_1_alg».proof.Proof.Spec
import proofs.«169921_j22385369546848_1_alg».proof.Proof.SpecLaws
import proofs.«169921_j22385369546848_1_alg».proof.Proof.LibKeepdims
set_option maxRecDepth 16384

noncomputable section

namespace Cert.KernelIdeal.Classifier4

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem zeroOrigin : (![0, 0] : Fin 2 → Nat) = fun _ => 0 := funext fun a => by fin_cases a <;> rfl

/-- The value of the pattern the row maximum starts from (the float −∞). -/
abbrev bot : EReal := Ideal.ofBits .f32 0xFF800000#32

/-! ## The body in two parts: the logits of a block, and the log-softmax of its rows -/

/-- The first part of the body: the block's rows times the weights, plus the bias row. -/
def blockLogits (x0 : Vec Ideal S5000x192 .f32) (x1 : Vec Ideal S192x40 .f32) (x2 : Vec Ideal S1x40 .f32) : FVec Ideal S5000x40 .f32 :=
  addf (matmul dot_S5000x192_S192x40_S5000x40_1_0_0_1_n_n none (truncf .bf16 (shapeCast S5000x192 x0 shapeCasts_S5000x192_S5000x192) bitsLt_bf16_f32)
      (truncf .bf16 x1 bitsLt_bf16_f32) (constant (F := Ideal) S5000x40 .f32 0x00000000#32))
    (broadcastTo S5000x40 (shapeCast S1x40 x2 shapeCasts_S1x40_S1x40) broadcasts_S1x40_S5000x40)

/-- The maximum of each row, kept as a column and spread back over the row. -/
def rowMaxSpread (L : FVec Ideal S5000x40 .f32) : FVec Ideal S5000x40 .f32 :=
  broadcastTo S5000x40 (shapeCast S5000x1 (multiReduction (F := Ideal) .maximumf [1] S5000 L 0xFF800000#32 reduces_S5000x40_S5000 (.inl rfl) rfl)
    shapeCasts_S5000_S5000x1) broadcasts_S5000x1_S5000x40

/-- The second part of the body: subtract the row maximum, then the logarithm of the row's sum of exponentials. -/
def blockLogSoftmax (L : FVec Ideal S5000x40 .f32) : FVec Ideal S5000x40 .f32 :=
  subf (subf L (rowMaxSpread L))
    (broadcastTo S5000x40 (log (shapeCast S5000x1 (multiReduction (F := Ideal) .add [1] S5000 (exp (subf L (rowMaxSpread L))) 0x00000000#32
      reduces_S5000x40_S5000 (.inl rfl) rfl) shapeCasts_S5000_S5000x1)) broadcasts_S5000x1_S5000x40)

/-- The body's payload is the second part applied to the first. -/
theorem payload_split (x0 : Vec Ideal S5000x192 .f32) (x1 : Vec Ideal S192x40 .f32) (x2 : Vec Ideal S1x40 .f32) :
    k4_pay1 (F := Ideal) x0 x1 x2 = blockLogSoftmax (blockLogits x0 x1 x2) := rfl

/-! ## The logits of a block, entry by entry -/

theorem lhs_row (i : S5000x40.Idx) (k : dot_S5000x192_S192x40_S5000x40_1_0_0_1_n_n.contr.Idx) : (dot_S5000x192_S192x40_S5000x40_1_0_0_1_n_n.lhsIdx i k 0).val = (i 0).val := by
  unfold DotDims.lhsIdx
  rw [dif_neg (show ¬(0 : Fin S5000x192.rank) ∈ dot_S5000x192_S192x40_S5000x40_1_0_0_1_n_n.lhsBatch by decide), dif_pos (show (0 : Fin S5000x192.rank) ∈ dot_S5000x192_S192x40_S5000x40_1_0_0_1_n_n.lhsNonContracting by decide)]
  rfl

theorem rhs_col (i : S5000x40.Idx) (k : dot_S5000x192_S192x40_S5000x40_1_0_0_1_n_n.contr.Idx) : (dot_S5000x192_S192x40_S5000x40_1_0_0_1_n_n.rhsIdx i k 1).val = (i 1).val := by
  unfold DotDims.rhsIdx
  rw [dif_neg (show ¬(1 : Fin S192x40.rank) ∈ dot_S5000x192_S192x40_S5000x40_1_0_0_1_n_n.rhsBatch by decide), dif_pos (show (1 : Fin S192x40.rank) ∈ dot_S5000x192_S192x40_S5000x40_1_0_0_1_n_n.rhsNonContracting by decide)]
  rfl

/-- The block's logits at (p, q): the sum over the 192 features of row p times column q of the weights, plus the bias
    of class q. -/
theorem blockLogits_apply (x0 : Vec Ideal S5000x192 .f32) (x1 : Vec Ideal S192x40 .f32) (x2 : Vec Ideal S1x40 .f32) (p : Fin 5000) (q : Fin 40) :
    blockLogits x0 x1 x2 (ix2 p q) = Cert.Spec.logits (n := 5000) (k := 192) (p := 40) x0 x1 x2 (ix2 p q) := by
  unfold blockLogits
  rw [addf_apply, shapeCast_self, shapeCast_self, broadcastTo_1b_ab_apply]
  simp only [matmul]
  rw [Ideal.matmul_constant_zero_apply, ← Equiv.sum_comp (contrEquiv1 dot_S5000x192_S192x40_S5000x40_1_0_0_1_n_n 192 rfl rfl).symm]
  show _ = (∑ j : Fin 192, x0 (ix2 p j) * x1 (ix2 j q)) + x2 (ix2 (0 : Fin 1) q)
  refine congrArg (· + x2 (ix2 (0 : Fin 1) q)) (Finset.sum_congr rfl fun k _ => ?_)
  have hk := contrEquiv1_symm_val dot_S5000x192_S192x40_S5000x40_1_0_0_1_n_n 192 rfl rfl k
  have el : dot_S5000x192_S192x40_S5000x40_1_0_0_1_n_n.lhsIdx (ix2 p q) ((contrEquiv1 dot_S5000x192_S192x40_S5000x40_1_0_0_1_n_n 192 rfl rfl).symm k) = ix2 p k := funext fun a => Fin.ext (by
    match a with
    | ⟨0, _⟩ => exact lhs_row _ _
    | ⟨1, _⟩ => exact (dot_S5000x192_S192x40_S5000x40_1_0_0_1_n_n.lhsIdx_val_of_single rfl _ _).trans hk)
  have er : dot_S5000x192_S192x40_S5000x40_1_0_0_1_n_n.rhsIdx (ix2 p q) ((contrEquiv1 dot_S5000x192_S192x40_S5000x40_1_0_0_1_n_n 192 rfl rfl).symm k) = ix2 k q := funext fun a => Fin.ext (by
    match a with
    | ⟨0, _⟩ => exact (dot_S5000x192_S192x40_S5000x40_1_0_0_1_n_n.rhsIdx_val_of_single rfl _ _).trans hk
    | ⟨1, _⟩ => exact rhs_col _ _)
  rw [truncf_apply, truncf_apply, el, er]

/-! ## The log-softmax of a block's rows, entry by entry -/

/-- The index a reduction over the columns reads at column k of row p. -/
theorem lift_row (p : Fin 5000) (k : Fin 40) : reduces_S5000x40_S5000.lift (ix1 p) k = ix2 p k :=
  funext fun a => Fin.ext (by
    match a with
    | ⟨0, _⟩ => rfl
    | ⟨1, _⟩ => rfl)

/-- The spread row maximum at (p, q) is the maximum of row p. -/
theorem rowMaxSpread_apply (L : FVec Ideal S5000x40 .f32) (p : Fin 5000) (q : Fin 40) :
    rowMaxSpread L (ix2 p q) = Cert.Spec.rowMax (n := 5000) (p := 40) bot L p := by
  unfold rowMaxSpread
  rw [Cert.LibKeepdims.broadcastTo_a1_ab_apply, Cert.LibKeepdims.shapeCast_a_a1_apply]
  refine (Ideal.multiReduction_maximumf_single L _ reduces_S5000x40_S5000 (.inl rfl) rfl (ix1 p)).trans ?_
  unfold Cert.Spec.rowMax
  exact congrArg (fun f => (Finset.univ : Finset (Fin 40)).fold max bot f) (funext fun k => congrArg L (lift_row p k))

/-- The second part of the body at (p, q) is the row-wise log-softmax of the block at (p, q). -/
theorem blockLogSoftmax_apply (L : FVec Ideal S5000x40 .f32) (p : Fin 5000) (q : Fin 40) :
    blockLogSoftmax L (ix2 p q) = Cert.Spec.logSoftmax (n := 5000) (p := 40) bot L (ix2 p q) := by
  unfold blockLogSoftmax
  rw [subf_apply, subf_apply, rowMaxSpread_apply, Cert.LibKeepdims.broadcastTo_a1_ab_apply]
  show _ - Ideal.log (shapeCast S5000x1 _ shapeCasts_S5000_S5000x1 (ix2 p (0 : Fin 1))) = _
  rw [Cert.LibKeepdims.shapeCast_a_a1_apply]
  have hs : multiReduction (F := Ideal) .add [1] S5000 (exp (subf L (rowMaxSpread L))) 0x00000000#32 reduces_S5000x40_S5000 (.inl rfl) rfl (ix1 p)
      = ∑ k : Fin 40, Ideal.exp (L (ix2 p k) - Cert.Spec.rowMax (n := 5000) (p := 40) bot L p) := by
    refine (Ideal.multiReduction_add_single _ _ reduces_S5000x40_S5000 (.inl rfl) rfl (ix1 p)).trans ?_
    show ∑ k : Fin 40, exp (subf L (rowMaxSpread L)) (reduces_S5000x40_S5000.lift (ix1 p) k) = _
    refine Finset.sum_congr rfl fun k _ => ?_
    rw [lift_row]
    show Ideal.exp (L (ix2 p k) - rowMaxSpread L (ix2 p k)) = _
    rw [rowMaxSpread_apply]
  rw [hs]
  rfl

/-! ## From blocks to the array -/

/-- Where the windows sit: at grid point `t` the feature rows and the output rows are block `t` of their arrays (5000
    rows each); the weights and the bias row are always whole. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What grid point `t` writes back is block `t` of the classifier's output on the arrays as the region finds them:
    the log-softmax of a row reads that row's logits only, and those read that row's features only. -/
theorem flushed_eq (c : Dev nD) (t : Fin cfg4.N) :
    (dat4 V c).flushed 3 t = ((cfg4.win 3).blk t).view.read (Elt Ideal)
      (Cert.Spec.linLogSoftmax (n := 100000) (k := 192) (p := 40) bot (V c main_v32) (V c main_arg8) (V c main_v33)) := by
  show (cfg4.win 3).cut (grid4.coords t) ((dat4 V c).after 3 t) = _
  rw [after4_3]
  unfold out4_3
  rw [View.canon_unit_zero zeroOrigin]
  simp only [View.ld_unit_zero (S := S5000x192) zeroOrigin, View.ld_unit_zero (S := S192x40) zeroOrigin, View.ld_unit_zero (S := S1x40) zeroOrigin]
  obtain ⟨e0, e1, e2, e3, e4, e5, e6, e7⟩ := idx_facts t
  funext j
  obtain ⟨p, q, rfl⟩ : ∃ (p : Fin 5000) (q : Fin 40), j = ix2 p q := ⟨j 0, j 1, eq_ix2 j⟩
  have hp : p.val < 5000 := p.isLt
  have hq : q.val < 40 := q.isLt
  have ht : t.val < 20 := by have := t.isLt; have hN : cfg4.N = 20 := N_4; omega
  show k4_pay1 (F := Ideal) (iblk4 V c 0 t) (iblk4 V c 1 t) (iblk4 V c 2 t) (ix2 p q)
      = Cert.Spec.linLogSoftmax (n := 100000) (k := 192) (p := 40) bot (V c main_v32) (V c main_arg8) (V c main_v33) (((cfg4.win 3).blk t).view.emb (ix2 p q))
  -- the array index the block entry sits at: row 5000 t + p, column q
  have hi : ((cfg4.win 3).blk t).view.emb (ix2 p q) = ix2 (⟨t.val * 5000 + p.val, by omega⟩ : Fin 100000) q := by
    funext a; apply Fin.ext
    match a with
    | ⟨0, _⟩ => show win4_3.index t (0 : Fin 2) * 5000 + 1 * p.val = t.val * 5000 + p.val; omega
    | ⟨1, _⟩ => show win4_3.index t (1 : Fin 2) * 40 + 1 * q.val = q.val; omega
  rw [hi, payload_split, blockLogSoftmax_apply]
  unfold Cert.Spec.linLogSoftmax
  refine Cert.Spec.logSoftmax_congr_row bot _ _ _ _ (fun q' => ?_) _
  rw [blockLogits_apply]
  have hW : (iblk4 V c 1 t : S192x40.Idx → EReal) = V c main_arg8 := by
    funext y
    show V c main_arg8 (((cfg4.win 1).blk t).view.emb y) = V c main_arg8 y
    refine congrArg _ (funext fun a => Fin.ext ?_)
    match a with
    | ⟨0, _⟩ => show win4_1.index t (0 : Fin 2) * 192 + 1 * (y 0).val = (y 0).val; omega
    | ⟨1, _⟩ => show win4_1.index t (1 : Fin 2) * 40 + 1 * (y 1).val = (y 1).val; omega
  have hb : (iblk4 V c 2 t : S1x40.Idx → EReal) = V c main_v33 := by
    funext y
    show V c main_v33 (((cfg4.win 2).blk t).view.emb y) = V c main_v33 y
    refine congrArg _ (funext fun a => Fin.ext ?_)
    match a with
    | ⟨0, _⟩ => show win4_2.index t (0 : Fin 2) * 1 + 1 * (y 0).val = (y 0).val; omega
    | ⟨1, _⟩ => show win4_2.index t (1 : Fin 2) * 40 + 1 * (y 1).val = (y 1).val; omega
  rw [hW, hb]
  refine Cert.Spec.logits_congr_row _ _ _ _ _ _ (fun k => ?_) _
  show V c main_v32 (((cfg4.win 0).blk t).view.emb (ix2 p k)) = V c main_v32 _
  refine congrArg _ (funext fun a => Fin.ext ?_)
  match a with
  | ⟨0, _⟩ => show win4_0.index t (0 : Fin 2) * 5000 + 1 * p.val = t.val * 5000 + p.val; omega
  | ⟨1, _⟩ => show win4_0.index t (1 : Fin 2) * 192 + 1 * k.val = k.val; omega

/-- An index of the output array is in point `t`'s block iff each coordinate is in the block's range on its axis. -/
theorem mem_blk (t : Fin cfg4.N) (i : S100000x40.Idx) :
    i ∈ ((cfg4.win 3).blk t).view.set ↔ ∀ a : Fin 2, win4_3.index t a * S5000x40.size a ≤ (i a).val ∧ (i a).val < win4_3.index t a * S5000x40.size a + S5000x40.size a := by
  show i ∈ ((View.whole main_v34).slice (win4_3.rect t)).set ↔ _
  rw [View.set_slice_whole, Rect.mem_set_unit]
  exact Iff.rfl

/-- The twenty blocks of 5000 rows tile the 100000 rows: row `r` is in block `r / 5000`. -/
theorem cover (i : S100000x40.Idx) : ∃ t : Fin cfg4.N, (cfg4.win 3).flush t = true ∧ i ∈ ((cfg4.win 3).blk t).view.set := by
  have hi0 : (i 0).val < 100000 := (i 0).isLt
  have hi1 : (i 1).val < 40 := (i 1).isLt
  have hN : cfg4.N = 20 := N_4
  let t : Fin cfg4.N := ⟨(i 0).val / 5000, by rw [hN]; omega⟩
  obtain ⟨e0, e1, e2, e3, e4, e5, e6, e7⟩ := idx_facts t
  have ht : t.val = (i 0).val / 5000 := rfl
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 40 ≤ (i 1).val ∧ (i 1).val < win4_3.index t (1 : Fin 2) * 40 + 40; omega

/-- The output array after the region: the classifier's output on the arrays as the region finds them. -/
theorem final (c : Dev nD) :
    (dat4 V c).arrAt 3 cfg4.N
      = Cert.Spec.linLogSoftmax (n := 100000) (k := 192) (p := 40) bot (V c main_v32) (V c main_arg8) (V c main_v33) :=
  (dat4 V c).arrAt_eq_of_cover 3 _ (fun t _ => flushed_eq V c t) cover

end Cert.KernelIdeal.Classifier4

end
-- ==== Proof.KernelValue.lean ====
import proofs.«169921_j22385369546848_1_alg».proof.Proof.Gen.KernelIdeal.Frame
import proofs.«169921_j22385369546848_1_alg».proof.Proof.Layers
import proofs.«169921_j22385369546848_1_alg».proof.Proof.MatMul0
import proofs.«169921_j22385369546848_1_alg».proof.Proof.BiasRelu1
import proofs.«169921_j22385369546848_1_alg».proof.Proof.MatMul2
import proofs.«169921_j22385369546848_1_alg».proof.Proof.BiasRelu3
import proofs.«169921_j22385369546848_1_alg».proof.Proof.Classifier4
import Idealize.ShloMosaic.Lib.StableHlo.Run

set_option maxRecDepth 16384

noncomputable section

namespace Cert.KernelIdeal.Value

open Cert.KernelIdeal Cert.KernelIdeal.Gen Cert.KernelIdeal.Layers Idealize.ShloMosaic Idealize.ShloMosaic.TcCoe Idealize.SL.Sem
open Idealize.ShloMosaic.StableHlo
open Idealize.ShloMosaic.Pipeline (Dat Cfg Window)

variable (m : (ℓ : Loc nD τ sig) → Buf (Elt Ideal) ℓ) (ρ : Dev nD → PrngReg) (c : Dev nD)

/-! The fold `W8` of the five regions and the three host stretches, read at the result buffer: region by region and
    stretch by stretch, each output array is a stage of `Layers.network` of the launch contents of the arguments. -/

/-- What the launch memory holds at a buffer is what every later boundary holds there, as long as nothing writes it. -/
theorem keep1 (b : Ref sig .tc) (h0 : ∀ w, Pipeline.arrRef spec0 w ≠ b) :
    W1 m ρ c (Proc.devRef .tc b) = m ((c : Thread nD τ).loc b) := W1_of_ne m ρ c b h0

/-! ## Region 0 and the first host stretch -/

/-- Region 0 leaves the product x · w1 in its output array. -/
theorem support1 : W1 m ρ c (Proc.devRef .tc main_v0)
    = Cert.Spec.matMul (n := 100000) (k := 256) (p := 128) (m ((c : Thread nD τ).loc main_arg0)) (m ((c : Thread nD τ).loc main_arg4)) :=
  (W1_arr m ρ c 2).trans (Cert.KernelIdeal.MatMul0.final (V0 m ρ) c)

/-- The first host stretch aggregates that product over the edges ... -/
theorem agg1 : W2 m ρ c (Proc.devRef .tc main_v13)
    = aggregate128 (Cert.Spec.matMul (n := 100000) (k := 256) (p := 128) (m ((c : Thread nD τ).loc main_arg0)) (m ((c : Thread nD τ).loc main_arg4))) (m ((c : Thread nD τ).loc main_arg1)) (m ((c : Thread nD τ).loc main_arg2)) (m ((c : Thread nD τ).loc main_arg3)) := by
  have e : W2 m ρ c (Proc.devRef .tc main_v13)
      = aggregate128 (W1 m ρ c (Proc.devRef .tc main_v0)) (W1 m ρ c (Proc.devRef .tc main_arg1)) (W1 m ρ c (Proc.devRef .tc main_arg2)) (W1 m ρ c (Proc.devRef .tc main_arg3)) := by
    show StableHlo.after hostOps1 (W1 m ρ c) (Proc.devRef .tc main_v13) = _
    after_results
    rfl
  rw [e, support1, keep1 m ρ c main_arg1 (by decide), keep1 m ρ c main_arg2 (by decide), keep1 m ρ c main_arg3 (by decide)]

/-- ... and lays the first bias out as a row. -/
theorem bias1 : W2 m ρ c (Proc.devRef .tc main_v14) = biasRow128 (m ((c : Thread nD τ).loc main_arg5)) := by
  have e : W2 m ρ c (Proc.devRef .tc main_v14) = biasRow128 (W1 m ρ c (Proc.devRef .tc main_arg5)) := by
    show StableHlo.after hostOps1 (W1 m ρ c) (Proc.devRef .tc main_v14) = _
    after_results
    rfl
  rw [e, keep1 m ρ c main_arg5 (by decide)]

/-- An argument neither region 0 nor the first stretch writes is as launched at region 1's entry. -/
theorem keep2 (b : Ref sig .tc) (h0 : ∀ w, Pipeline.arrRef spec0 w ≠ b)
    (h1 : StableHlo.after hostOps1 (W1 m ρ c) (Proc.devRef .tc b) = W1 m ρ c (Proc.devRef .tc b)) :
    W2 m ρ c (Proc.devRef .tc b) = m ((c : Thread nD τ).loc b) := h1.trans (keep1 m ρ c b h0)

/-! ## Regions 1 and 2 -/

/-- Region 1 leaves the first hidden layer in its output array. -/
theorem layer1 : W3 m ρ c (Proc.devRef .tc main_v15)
    = hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W3_arr m ρ c 2).trans ((Cert.KernelIdeal.BiasRelu1.final (V2 m ρ) c).trans ?_)
  show Cert.Spec.biasRelu (n := 100000) (d := 128) (W2 m ρ c (Proc.devRef .tc main_v13)) (W2 m ρ c (Proc.devRef .tc main_v14)) = _
  rw [agg1, bias1]
  rfl

theorem keep3 (b : Ref sig .tc) (h0 : ∀ w, Pipeline.arrRef spec0 w ≠ b)
    (h1 : StableHlo.after hostOps1 (W1 m ρ c) (Proc.devRef .tc b) = W1 m ρ c (Proc.devRef .tc b))
    (h2 : ∀ w, Pipeline.arrRef spec1 w ≠ b) :
    W3 m ρ c (Proc.devRef .tc b) = m ((c : Thread nD τ).loc b) := (W3_of_ne m ρ c b h2).trans (keep2 m ρ c b h0 h1)

theorem w2_at_3 : W3 m ρ c (Proc.devRef .tc main_arg6) = (m ((c : Thread nD τ).loc main_arg6)) :=
  keep3 m ρ c main_arg6 (by decide) (by show StableHlo.after hostOps1 (W1 m ρ c) (Proc.devRef .tc main_arg6) = _; after_results) (by decide)

/-- Region 2 leaves the product of the first hidden layer with w2 in its output array. -/
theorem support2 : W4 m ρ c (Proc.devRef .tc main_v16)
    = Cert.Spec.matMul (n := 100000) (k := 128) (p := 64) (hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) := by
  refine (W4_arr m ρ c 2).trans ((Cert.KernelIdeal.MatMul2.final (V3 m ρ) c).trans ?_)
  show Cert.Spec.matMul (n := 100000) (k := 128) (p := 64) (W3 m ρ c (Proc.devRef .tc main_v15)) (W3 m ρ c (Proc.devRef .tc main_arg6)) = _
  rw [layer1, w2_at_3]

/-- Region 2 only reads the first hidden layer: its array is unchanged. -/
theorem layer1_at_4 : W4 m ρ c (Proc.devRef .tc main_v15)
    = hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((W4_arr m ρ c 0).trans (((dat2 (V3 m ρ) c).arrAt_in 0 rfl _).trans (A_eq2 (V3 m ρ) c 0))).trans (layer1 m ρ c)

theorem keep4 (b : Ref sig .tc) (h0 : ∀ w, Pipeline.arrRef spec0 w ≠ b)
    (h1 : StableHlo.after hostOps1 (W1 m ρ c) (Proc.devRef .tc b) = W1 m ρ c (Proc.devRef .tc b))
    (h2 : ∀ w, Pipeline.arrRef spec1 w ≠ b) (h3 : ∀ w, Pipeline.arrRef spec2 w ≠ b) :
    W4 m ρ c (Proc.devRef .tc b) = m ((c : Thread nD τ).loc b) := (W4_of_ne m ρ c b h3).trans (keep3 m ρ c b h0 h1 h2)

/-! ## The second host stretch and region 3 -/

/-- The second host stretch aggregates the second product over the edges ... -/
theorem agg2 : W5 m ρ c (Proc.devRef .tc main_v29)
    = aggregate64 (Cert.Spec.matMul (n := 100000) (k := 128) (p := 64) (hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)))
        (m ((c : Thread nD τ).loc main_arg1)) (m ((c : Thread nD τ).loc main_arg2)) (m ((c : Thread nD τ).loc main_arg3)) := by
  have e : W5 m ρ c (Proc.devRef .tc main_v29)
      = aggregate64 (W4 m ρ c (Proc.devRef .tc main_v16)) (W4 m ρ c (Proc.devRef .tc main_arg1)) (W4 m ρ c (Proc.devRef .tc main_arg2)) (W4 m ρ c (Proc.devRef .tc main_arg3)) := by
    show StableHlo.after hostOps3 (W4 m ρ c) (Proc.devRef .tc main_v29) = _
    after_results
    rfl
  rw [e, support2, (keep4 m ρ c main_arg1 (by decide) (by show StableHlo.after hostOps1 (W1 m ρ c) (Proc.devRef .tc main_arg1) = _; after_results) (by decide) (by decide)), (keep4 m ρ c main_arg2 (by decide) (by show StableHlo.after hostOps1 (W1 m ρ c) (Proc.devRef .tc main_arg2) = _; after_results) (by decide) (by decide)), (keep4 m ρ c main_arg3 (by decide) (by show StableHlo.after hostOps1 (W1 m ρ c) (Proc.devRef .tc main_arg3) = _; after_results) (by decide) (by decide))]

/-- ... and lays the second bias out as a row. -/
theorem bias2 : W5 m ρ c (Proc.devRef .tc main_v30) = biasRow64 (m ((c : Thread nD τ).loc main_arg7)) := by
  have e : W5 m ρ c (Proc.devRef .tc main_v30) = biasRow64 (W4 m ρ c (Proc.devRef .tc main_arg7)) := by
    show StableHlo.after hostOps3 (W4 m ρ c) (Proc.devRef .tc main_v30) = _
    after_results
    rfl
  rw [e, (keep4 m ρ c main_arg7 (by decide) (by show StableHlo.after hostOps1 (W1 m ρ c) (Proc.devRef .tc main_arg7) = _; after_results) (by decide) (by decide))]

/-- Region 3 leaves the second hidden layer in its output array. -/
theorem layer2 : W6 m ρ c (Proc.devRef .tc main_v31)
    = hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 2).trans ((Cert.KernelIdeal.BiasRelu3.final (V5 m ρ) c).trans ?_)
  show Cert.Spec.biasRelu (n := 100000) (d := 64) (W5 m ρ c (Proc.devRef .tc main_v29)) (W5 m ρ c (Proc.devRef .tc main_v30)) = _
  rw [agg2, bias2]
  rfl

/-- Neither the second stretch nor region 3 touches the first hidden layer's array. -/
theorem layer1_at_6 : W6 m ρ c (Proc.devRef .tc main_v15)
    = hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_of_ne m ρ c main_v15 (by decide)).trans ?_
  have e : W5 m ρ c (Proc.devRef .tc main_v15) = W4 m ρ c (Proc.devRef .tc main_v15) := by
    show StableHlo.after hostOps3 (W4 m ρ c) (Proc.devRef .tc main_v15) = _
    after_results
  rw [e, layer1_at_4]

theorem keep6 (b : Ref sig .tc) (h0 : ∀ w, Pipeline.arrRef spec0 w ≠ b)
    (h1 : StableHlo.after hostOps1 (W1 m ρ c) (Proc.devRef .tc b) = W1 m ρ c (Proc.devRef .tc b))
    (h2 : ∀ w, Pipeline.arrRef spec1 w ≠ b) (h3 : ∀ w, Pipeline.arrRef spec2 w ≠ b)
    (h4 : StableHlo.after hostOps3 (W4 m ρ c) (Proc.devRef .tc b) = W4 m ρ c (Proc.devRef .tc b))
    (h5 : ∀ w, Pipeline.arrRef spec3 w ≠ b) :
    W6 m ρ c (Proc.devRef .tc b) = m ((c : Thread nD τ).loc b) :=
  (W6_of_ne m ρ c b h5).trans (h4.trans (keep4 m ρ c b h0 h1 h2 h3))

/-! ## The last host stretch and region 4 -/

/-- The last host stretch joins the two hidden layers' features ... -/
theorem features : W7 m ρ c (Proc.devRef .tc main_v32) = joinFeatures (hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  have e : W7 m ρ c (Proc.devRef .tc main_v32) = joinFeatures (W6 m ρ c (Proc.devRef .tc main_v31)) (W6 m ρ c (Proc.devRef .tc main_v15)) := by
    show StableHlo.after hostOps4 (W6 m ρ c) (Proc.devRef .tc main_v32) = _
    after_results
    rfl
  rw [e, layer2, layer1_at_6]

/-- ... and lays the classifier's bias out as a row. -/
theorem bias3 : W7 m ρ c (Proc.devRef .tc main_v33) = biasRow40 (m ((c : Thread nD τ).loc main_arg9)) := by
  have e : W7 m ρ c (Proc.devRef .tc main_v33) = biasRow40 (W6 m ρ c (Proc.devRef .tc main_arg9)) := by
    show StableHlo.after hostOps4 (W6 m ρ c) (Proc.devRef .tc main_v33) = _
    after_results
    rfl
  rw [e, (keep6 m ρ c main_arg9 (by decide) (by show StableHlo.after hostOps1 (W1 m ρ c) (Proc.devRef .tc main_arg9) = _; after_results) (by decide) (by decide) (by show StableHlo.after hostOps3 (W4 m ρ c) (Proc.devRef .tc main_arg9) = _; after_results) (by decide))]

theorem wl_at_7 : W7 m ρ c (Proc.devRef .tc main_arg8) = (m ((c : Thread nD τ).loc main_arg8)) := by
  have e : W7 m ρ c (Proc.devRef .tc main_arg8) = W6 m ρ c (Proc.devRef .tc main_arg8) := by
    show StableHlo.after hostOps4 (W6 m ρ c) (Proc.devRef .tc main_arg8) = _
    after_results
  rw [e, (keep6 m ρ c main_arg8 (by decide) (by show StableHlo.after hostOps1 (W1 m ρ c) (Proc.devRef .tc main_arg8) = _; after_results) (by decide) (by decide) (by show StableHlo.after hostOps3 (W4 m ρ c) (Proc.devRef .tc main_arg8) = _; after_results) (by decide))]

/-- THE RESULT: region 4 leaves the network's output in the result buffer. -/
theorem result_eq : W8 m ρ c (Proc.devRef .tc main_v34)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W8_arr m ρ c 3).trans ((Cert.KernelIdeal.Classifier4.final (V7 m ρ) c).trans ?_)
  show Cert.Spec.linLogSoftmax (n := 100000) (k := 192) (p := 40) Cert.KernelIdeal.Classifier4.bot
    (W7 m ρ c (Proc.devRef .tc main_v32)) (W7 m ρ c (Proc.devRef .tc main_arg8)) (W7 m ρ c (Proc.devRef .tc main_v33)) = _
  rw [features, wl_at_7, bias3]
  rfl

end Cert.KernelIdeal.Value

end
-- ==== Proof.RefOps.lean ====
/-
  The reference's dense stages, each a few host operations on whole arrays, are the functions of `Spec`:
  a contraction is the matrix product; a bias spread over the rows, added, and the maximum with zero is `biasRelu`;
  and jax's log-softmax (the row maximum from −∞, the shifted exponentials' row sum, its logarithm) is `logSoftmax`.
-/
import proofs.«169921_j22385369546848_1_alg».proof.Proof.Gen.ReferenceIdeal
import proofs.«169921_j22385369546848_1_alg».proof.Proof.Layers
import proofs.«169921_j22385369546848_1_alg».proof.Proof.SpecLaws
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.ReferenceIdeal.RefOps

open Cert.ReferenceIdeal Cert.ReferenceIdeal.Facts₀ Idealize.ShloMosaic Idealize.ShloMosaic.TcCoe Idealize.SL.Sem
open Idealize.ShloMosaic.ValueIdx

/-- The value of the pattern the row maximum starts from (the float −∞). -/
abbrev bot : EReal := Ideal.ofBits .f32 0xFF800000#32

/-! ## The three contractions -/

theorem dot1_lhs_row (i : S100000x128.Idx) (k : dot_S100000x256_S256x128_S100000x128_1_0_0_1_n_n.contr.Idx) : (dot_S100000x256_S256x128_S100000x128_1_0_0_1_n_n.lhsIdx i k 0).val = (i 0).val := by
  unfold DotDims.lhsIdx
  rw [dif_neg (show ¬(0 : Fin S100000x256.rank) ∈ dot_S100000x256_S256x128_S100000x128_1_0_0_1_n_n.lhsBatch by decide), dif_pos (show (0 : Fin S100000x256.rank) ∈ dot_S100000x256_S256x128_S100000x128_1_0_0_1_n_n.lhsNonContracting by decide)]
  rfl

theorem dot1_rhs_col (i : S100000x128.Idx) (k : dot_S100000x256_S256x128_S100000x128_1_0_0_1_n_n.contr.Idx) : (dot_S100000x256_S256x128_S100000x128_1_0_0_1_n_n.rhsIdx i k 1).val = (i 1).val := by
  unfold DotDims.rhsIdx
  rw [dif_neg (show ¬(1 : Fin S256x128.rank) ∈ dot_S100000x256_S256x128_S100000x128_1_0_0_1_n_n.rhsBatch by decide), dif_pos (show (1 : Fin S256x128.rank) ∈ dot_S100000x256_S256x128_S100000x128_1_0_0_1_n_n.rhsNonContracting by decide)]
  rfl

/-- The host's contraction of a [100000, 256] array with a [256, 128] array is the matrix product, entry by entry. -/
theorem dot1_eq (X : FVec Ideal S100000x256 .f32) (W : FVec Ideal S256x128 .f32) :
    Host.dotGeneral (F := Ideal) dot_S100000x256_S256x128_S100000x128_1_0_0_1_n_n none X W = Cert.Spec.matMul (n := 100000) (k := 256) (p := 128) X W := by
  funext i
  obtain ⟨r, q, rfl⟩ : ∃ (r : Fin 100000) (q : Fin 128), i = ix2 r q := ⟨i 0, i 1, eq_ix2 i⟩
  simp only [Host.dotGeneral]
  rw [Ideal.dotGeneral_apply, ← Equiv.sum_comp (contrEquiv1 dot_S100000x256_S256x128_S100000x128_1_0_0_1_n_n 256 rfl rfl).symm]
  show _ = ∑ j : Fin 256, X (ix2 r j) * W (ix2 j q)
  refine Finset.sum_congr rfl fun k _ => ?_
  have hk := contrEquiv1_symm_val dot_S100000x256_S256x128_S100000x128_1_0_0_1_n_n 256 rfl rfl k
  have el : dot_S100000x256_S256x128_S100000x128_1_0_0_1_n_n.lhsIdx (ix2 r q) ((contrEquiv1 dot_S100000x256_S256x128_S100000x128_1_0_0_1_n_n 256 rfl rfl).symm k) = ix2 r k := funext fun a => Fin.ext (by
    match a with
    | ⟨0, _⟩ => exact dot1_lhs_row _ _
    | ⟨1, _⟩ => exact (dot_S100000x256_S256x128_S100000x128_1_0_0_1_n_n.lhsIdx_val_of_single rfl _ _).trans hk)
  have er : dot_S100000x256_S256x128_S100000x128_1_0_0_1_n_n.rhsIdx (ix2 r q) ((contrEquiv1 dot_S100000x256_S256x128_S100000x128_1_0_0_1_n_n 256 rfl rfl).symm k) = ix2 k q := funext fun a => Fin.ext (by
    match a with
    | ⟨0, _⟩ => exact (dot_S100000x256_S256x128_S100000x128_1_0_0_1_n_n.rhsIdx_val_of_single rfl _ _).trans hk
    | ⟨1, _⟩ => exact dot1_rhs_col _ _)
  rw [el, er]

theorem dot2_lhs_row (i : S100000x64.Idx) (k : dot_S100000x128_S128x64_S100000x64_1_0_0_1_n_n.contr.Idx) : (dot_S100000x128_S128x64_S100000x64_1_0_0_1_n_n.lhsIdx i k 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl

theorem dot2_rhs_col (i : S100000x64.Idx) (k : dot_S100000x128_S128x64_S100000x64_1_0_0_1_n_n.contr.Idx) : (dot_S100000x128_S128x64_S100000x64_1_0_0_1_n_n.rhsIdx i k 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- The host's contraction of a [100000, 128] array with a [128, 64] array is the matrix product, entry by entry. -/
theorem dot2_eq (X : FVec Ideal S100000x128 .f32) (W : FVec Ideal S128x64 .f32) :
    Host.dotGeneral (F := Ideal) dot_S100000x128_S128x64_S100000x64_1_0_0_1_n_n none X W = Cert.Spec.matMul (n := 100000) (k := 128) (p := 64) X W := by
  funext i
  obtain ⟨r, q, rfl⟩ : ∃ (r : Fin 100000) (q : Fin 64), i = ix2 r q := ⟨i 0, i 1, eq_ix2 i⟩
  simp only [Host.dotGeneral]
  rw [Ideal.dotGeneral_apply, ← Equiv.sum_comp (contrEquiv1 dot_S100000x128_S128x64_S100000x64_1_0_0_1_n_n 128 rfl rfl).symm]
  show _ = ∑ j : Fin 128, X (ix2 r j) * W (ix2 j q)
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx (ix2 r q) ((contrEquiv1 dot_S100000x128_S128x64_S100000x64_1_0_0_1_n_n 128 rfl rfl).symm k) = ix2 r k := funext fun a => Fin.ext (by
    match a with
    | ⟨0, _⟩ => exact dot2_lhs_row _ _
    | ⟨1, _⟩ => exact (dot_S100000x128_S128x64_S100000x64_1_0_0_1_n_n.lhsIdx_val_of_single rfl _ _).trans hk)
  have er : dot_S100000x128_S128x64_S100000x64_1_0_0_1_n_n.rhsIdx (ix2 r q) ((contrEquiv1 dot_S100000x128_S128x64_S100000x64_1_0_0_1_n_n 128 rfl rfl).symm k) = ix2 k q := funext fun a => Fin.ext (by
    match a with
    | ⟨0, _⟩ => exact (dot_S100000x128_S128x64_S100000x64_1_0_0_1_n_n.rhsIdx_val_of_single rfl _ _).trans hk
    | ⟨1, _⟩ => exact dot2_rhs_col _ _)
  rw [el, er]

theorem dot3_lhs_row (i : S100000x40.Idx) (k : dot_S100000x192_S192x40_S100000x40_1_0_0_1_n_n.contr.Idx) : (dot_S100000x192_S192x40_S100000x40_1_0_0_1_n_n.lhsIdx i k 0).val = (i 0).val := by
  unfold DotDims.lhsIdx
  rw [dif_neg (show ¬(0 : Fin S100000x192.rank) ∈ dot_S100000x192_S192x40_S100000x40_1_0_0_1_n_n.lhsBatch by decide), dif_pos (show (0 : Fin S100000x192.rank) ∈ dot_S100000x192_S192x40_S100000x40_1_0_0_1_n_n.lhsNonContracting by decide)]
  rfl

theorem dot3_rhs_col (i : S100000x40.Idx) (k : dot_S100000x192_S192x40_S100000x40_1_0_0_1_n_n.contr.Idx) : (dot_S100000x192_S192x40_S100000x40_1_0_0_1_n_n.rhsIdx i k 1).val = (i 1).val := by
  unfold DotDims.rhsIdx
  rw [dif_neg (show ¬(1 : Fin S192x40.rank) ∈ dot_S100000x192_S192x40_S100000x40_1_0_0_1_n_n.rhsBatch by decide), dif_pos (show (1 : Fin S192x40.rank) ∈ dot_S100000x192_S192x40_S100000x40_1_0_0_1_n_n.rhsNonContracting by decide)]
  rfl

/-- The host's contraction of a [100000, 192] array with a [192, 40] array is the matrix product, entry by entry. -/
theorem dot3_eq (X : FVec Ideal S100000x192 .f32) (W : FVec Ideal S192x40 .f32) :
    Host.dotGeneral (F := Ideal) dot_S100000x192_S192x40_S100000x40_1_0_0_1_n_n none X W = Cert.Spec.matMul (n := 100000) (k := 192) (p := 40) X W := by
  funext i
  obtain ⟨r, q, rfl⟩ : ∃ (r : Fin 100000) (q : Fin 40), i = ix2 r q := ⟨i 0, i 1, eq_ix2 i⟩
  simp only [Host.dotGeneral]
  rw [Ideal.dotGeneral_apply, ← Equiv.sum_comp (contrEquiv1 dot_S100000x192_S192x40_S100000x40_1_0_0_1_n_n 192 rfl rfl).symm]
  show _ = ∑ j : Fin 192, X (ix2 r j) * W (ix2 j q)
  refine Finset.sum_congr rfl fun k _ => ?_
  have hk := contrEquiv1_symm_val dot_S100000x192_S192x40_S100000x40_1_0_0_1_n_n 192 rfl rfl k
  have el : dot_S100000x192_S192x40_S100000x40_1_0_0_1_n_n.lhsIdx (ix2 r q) ((contrEquiv1 dot_S100000x192_S192x40_S100000x40_1_0_0_1_n_n 192 rfl rfl).symm k) = ix2 r k := funext fun a => Fin.ext (by
    match a with
    | ⟨0, _⟩ => exact dot3_lhs_row _ _
    | ⟨1, _⟩ => exact (dot_S100000x192_S192x40_S100000x40_1_0_0_1_n_n.lhsIdx_val_of_single rfl _ _).trans hk)
  have er : dot_S100000x192_S192x40_S100000x40_1_0_0_1_n_n.rhsIdx (ix2 r q) ((contrEquiv1 dot_S100000x192_S192x40_S100000x40_1_0_0_1_n_n 192 rfl rfl).symm k) = ix2 k q := funext fun a => Fin.ext (by
    match a with
    | ⟨0, _⟩ => exact (dot_S100000x192_S192x40_S100000x40_1_0_0_1_n_n.rhsIdx_val_of_single rfl _ _).trans hk
    | ⟨1, _⟩ => exact dot3_rhs_col _ _)
  rw [el, er]

/-! ## Bias and positive part -/

/-- A bias vector of length 128 laid along the columns of a [100000, 128] array reads, at (r, q), entry q. -/
theorem biasSpread128_apply (b : FVec Ideal S128 .f32) (r : Fin 100000) (q : Fin 128) :
    broadcastInDim S100000x128 ![0, 1] bcast_S1x128_S100000x128_0_1 (broadcastInDim S1x128 ![1] bcast_S128_S1x128_1 b) (ix2 r q) = b (ix1 q) := by
  rw [broadcastInDim_apply _ _ _ (ix2 r q) (ix2 (0 : Fin 1) q) (fun a => by
    match a with
    | ⟨0, _⟩ => rfl
    | ⟨1, _⟩ => rfl)]
  exact broadcastInDim_apply _ _ _ (ix2 (0 : Fin 1) q) (ix1 q) (fun a => by
    match a with
    | ⟨0, _⟩ => rfl)

/-- The reference's bias and positive part on a [100000, 128] array: the bias spread over the rows, added, then the maximum
    with a zero array, is `biasRelu` with the bias seen as a one-row array. -/
theorem biasRelu128_eq (A : FVec Ideal S100000x128 .f32) (b : FVec Ideal S128 .f32) :
    maximumf (addf A (broadcastInDim S100000x128 ![0, 1] bcast_S1x128_S100000x128_0_1 (broadcastInDim S1x128 ![1] bcast_S128_S1x128_1 b)))
      (broadcastInDim S100000x128 ![] bcast_S_S100000x128 (constant (F := Ideal) S_ .f32 0x00000000#32))
    = Cert.Spec.biasRelu (n := 100000) (d := 128) A (Cert.KernelIdeal.Layers.biasRow128 b) := by
  funext i
  obtain ⟨r, q, rfl⟩ : ∃ (r : Fin 100000) (q : Fin 128), i = ix2 r q := ⟨i 0, i 1, eq_ix2 i⟩
  rw [maximumf_apply, addf_apply, biasSpread128_apply, broadcastInDim_scalar_apply, constant_apply, Ideal.ofBits_zero_f32]
  show _ = max (A (ix2 r q) + Cert.KernelIdeal.Layers.biasRow128 b (ix2 (0 : Fin 1) q)) 0
  unfold Cert.KernelIdeal.Layers.biasRow128
  rw [shapeCast_a_1a_apply]

/-- A bias vector of length 64 laid along the columns of a [100000, 64] array reads, at (r, q), entry q. -/
theorem biasSpread64_apply (b : FVec Ideal S64 .f32) (r : Fin 100000) (q : Fin 64) :
    broadcastInDim S100000x64 ![0, 1] bcast_S1x64_S100000x64_0_1 (broadcastInDim S1x64 ![1] bcast_S64_S1x64_1 b) (ix2 r q) = b (ix1 q) := by
  rw [broadcastInDim_apply _ _ _ (ix2 r q) (ix2 (0 : Fin 1) q) (fun a => by
    match a with
    | ⟨0, _⟩ => rfl
    | ⟨1, _⟩ => rfl)]
  exact broadcastInDim_apply _ _ _ (ix2 (0 : Fin 1) q) (ix1 q) (fun a => by
    match a with
    | ⟨0, _⟩ => rfl)

/-- The reference's bias and positive part on a [100000, 64] array: the bias spread over the rows, added, then the maximum
    with a zero array, is `biasRelu` with the bias seen as a one-row array. -/
theorem biasRelu64_eq (A : FVec Ideal S100000x64 .f32) (b : FVec Ideal S64 .f32) :
    maximumf (addf A (broadcastInDim S100000x64 ![0, 1] bcast_S1x64_S100000x64_0_1 (broadcastInDim S1x64 ![1] bcast_S64_S1x64_1 b)))
      (broadcastInDim S100000x64 ![] bcast_S_S100000x64 (constant (F := Ideal) S_ .f32 0x00000000#32))
    = Cert.Spec.biasRelu (n := 100000) (d := 64) A (Cert.KernelIdeal.Layers.biasRow64 b) := by
  funext i
  obtain ⟨r, q, rfl⟩ : ∃ (r : Fin 100000) (q : Fin 64), i = ix2 r q := ⟨i 0, i 1, eq_ix2 i⟩
  rw [maximumf_apply, addf_apply, biasSpread64_apply, broadcastInDim_scalar_apply, constant_apply, Ideal.ofBits_zero_f32]
  show _ = max (A (ix2 r q) + Cert.KernelIdeal.Layers.biasRow64 b (ix2 (0 : Fin 1) q)) 0
  unfold Cert.KernelIdeal.Layers.biasRow64
  rw [shapeCast_a_1a_apply]

/-! ## The classifier's logits -/

/-- A bias vector of length 40 laid along the columns of a [100000, 40] array reads, at (r, q), entry q. -/
theorem biasSpread40_apply (b : FVec Ideal S40 .f32) (r : Fin 100000) (q : Fin 40) :
    broadcastInDim S100000x40 ![0, 1] bcast_S1x40_S100000x40_0_1 (broadcastInDim S1x40 ![1] bcast_S40_S1x40_1 b) (ix2 r q) = b (ix1 q) := by
  rw [broadcastInDim_apply _ _ _ (ix2 r q) (ix2 (0 : Fin 1) q) (fun a => by
    match a with
    | ⟨0, _⟩ => rfl
    | ⟨1, _⟩ => rfl)]
  exact broadcastInDim_apply _ _ _ (ix2 (0 : Fin 1) q) (ix1 q) (fun a => by
    match a with
    | ⟨0, _⟩ => rfl)

/-- The reference's logits: the contraction plus the bias spread over the rows. -/
theorem logits_eq (C : FVec Ideal S100000x192 .f32) (W : FVec Ideal S192x40 .f32) (b : FVec Ideal S40 .f32) :
    addf (Host.dotGeneral (F := Ideal) dot_S100000x192_S192x40_S100000x40_1_0_0_1_n_n none C W)
      (broadcastInDim S100000x40 ![0, 1] bcast_S1x40_S100000x40_0_1 (broadcastInDim S1x40 ![1] bcast_S40_S1x40_1 b))
    = Cert.Spec.logits (n := 100000) (k := 192) (p := 40) C W (Cert.KernelIdeal.Layers.biasRow40 b) := by
  funext i
  obtain ⟨r, q, rfl⟩ : ∃ (r : Fin 100000) (q : Fin 40), i = ix2 r q := ⟨i 0, i 1, eq_ix2 i⟩
  rw [addf_apply, biasSpread40_apply, dot3_eq]
  show _ = Cert.Spec.matMul (n := 100000) (k := 192) (p := 40) C W (ix2 r q) + Cert.KernelIdeal.Layers.biasRow40 b (ix2 (0 : Fin 1) q)
  unfold Cert.KernelIdeal.Layers.biasRow40
  rw [shapeCast_a_1a_apply]

/-! ## jax's log-softmax over the 40 classes of each row -/

/-- The row maximum as the reference takes it (a reduce from −∞, then once more the maximum with −∞), kept as a column
    and spread back over the row. -/
def rowMaxSpread (L : FVec Ideal S100000x40 .f32) : FVec Ideal S100000x40 .f32 :=
  broadcastInDim S100000x40 ![0, 1] bcast_S100000x1_S100000x40_0_1
    (broadcastInDim S100000x1 ![0] bcast_S100000_S100000x1_0
      (maximumf (broadcastInDim S100000 ![] bcast_S_S100000 (constant (F := Ideal) S_ .f32 0xFF800000#32))
        (Host.reduce FloatOps.maximumf L (constant (F := Ideal) S_ .f32 0xFF800000#32) reducesTo_S100000x40_S100000_d1 h_S_)))

/-- jax's log-softmax, in the reference's operations. -/
def hostLogSoftmax (L : FVec Ideal S100000x40 .f32) : FVec Ideal S100000x40 .f32 :=
  subf (subf L (rowMaxSpread L))
    (broadcastInDim S100000x40 ![0, 1] bcast_S100000x1_S100000x40_0_1
      (Host.log (broadcastInDim S100000x1 ![0] bcast_S100000_S100000x1_0
        (Host.reduceAdd (F := Ideal) (Host.exp (subf L (rowMaxSpread L))) (constant (F := Ideal) S_ .f32 0x00000000#32) reducesTo_S100000x40_S100000_d1 h_S_))))

theorem reduces40 : S100000x40.Reduces [1] S100000 := by decide

theorem hostLog_apply {s : Shape} (v : FVec Ideal s .f32) (j : s.Idx) : Host.log v j = Ideal.log (v j) := rfl
theorem hostExp_apply {s : Shape} (v : FVec Ideal s .f32) (j : s.Idx) : Host.exp v j = Ideal.exp (v j) := rfl

/-- The index a reduction over the columns reads at column k of row r. -/
theorem lift_row (r : Fin 100000) (k : Fin 40) : reduces40.lift (ix1 r) k = ix2 r k :=
  funext fun a => Fin.ext (by
    match a with
    | ⟨0, _⟩ => rfl
    | ⟨1, _⟩ => rfl)

/-- A column spread over the 40 classes reads, at (r, q), the column's entry of row r. -/
theorem columnSpread_apply (v : FVec Ideal S100000 .f32) (r : Fin 100000) (q : Fin 40) :
    broadcastInDim S100000x40 ![0, 1] bcast_S100000x1_S100000x40_0_1 (broadcastInDim S100000x1 ![0] bcast_S100000_S100000x1_0 v) (ix2 r q) = v (ix1 r) := by
  rw [broadcastInDim_apply _ _ _ (ix2 r q) (ix2 r (0 : Fin 1)) (fun a => by
    match a with
    | ⟨0, _⟩ => rfl
    | ⟨1, _⟩ => rfl)]
  exact broadcastInDim_apply _ _ _ (ix2 r (0 : Fin 1)) (ix1 r) (fun a => by
    match a with
    | ⟨0, _⟩ => rfl)

/-- The reference's spread row maximum at (r, q) is the maximum of row r: the fold of `max` from −∞ over the row, and
    the maximum of −∞ with it is it again. -/
theorem rowMaxSpread_apply (L : FVec Ideal S100000x40 .f32) (r : Fin 100000) (q : Fin 40) :
    rowMaxSpread L (ix2 r q) = Cert.Spec.rowMax (n := 100000) (p := 40) bot L r := by
  unfold rowMaxSpread
  rw [columnSpread_apply, maximumf_apply, broadcastInDim_scalar_apply, constant_apply]
  rw [Host.reduce_eq_fold_single FloatOps.maximumf L _ reducesTo_S100000x40_S100000_d1 reduces40 h_S_ (ix1 r)]
  have hf : (L ∘ reduces40.lift (ix1 r)) = fun k : Fin 40 => L (ix2 r k) := funext fun k => congrArg L (lift_row r k)
  have e : (Finset.univ : Finset (Fin 40)).fold (FloatOps.maximumf (F := Ideal) (φ := .f32)) (constant (F := Ideal) S_ .f32 0xFF800000#32 (Shape.Idx.first h_S_)) (L ∘ reduces40.lift (ix1 r))
      = Cert.Spec.rowMax (n := 100000) (p := 40) bot L r := by
    unfold Cert.Spec.rowMax
    exact congrArg (fun f => (Finset.univ : Finset (Fin 40)).fold max bot f) hf
  refine (congrArg (max bot) e).trans ?_
  refine max_eq_right ?_
  unfold Cert.Spec.rowMax
  exact (Finset.le_fold_max _).mpr (Or.inl le_rfl)

/-- jax's log-softmax is the row-wise `logSoftmax`. -/
theorem hostLogSoftmax_eq (L : FVec Ideal S100000x40 .f32) :
    hostLogSoftmax L = Cert.Spec.logSoftmax (n := 100000) (p := 40) bot L := by
  funext i
  obtain ⟨r, q, rfl⟩ : ∃ (r : Fin 100000) (q : Fin 40), i = ix2 r q := ⟨i 0, i 1, eq_ix2 i⟩
  unfold hostLogSoftmax
  rw [subf_apply, subf_apply, rowMaxSpread_apply]
  have hs : broadcastInDim S100000x40 ![0, 1] bcast_S100000x1_S100000x40_0_1
      (Host.log (broadcastInDim S100000x1 ![0] bcast_S100000_S100000x1_0
        (Host.reduceAdd (F := Ideal) (Host.exp (subf L (rowMaxSpread L))) (constant (F := Ideal) S_ .f32 0x00000000#32) reducesTo_S100000x40_S100000_d1 h_S_))) (ix2 r q)
      = Ideal.log (∑ k : Fin 40, Ideal.exp (L (ix2 r k) - Cert.Spec.rowMax (n := 100000) (p := 40) bot L r)) := by
    rw [broadcastInDim_apply _ _ _ (ix2 r q) (ix2 r (0 : Fin 1)) (fun a => by
      match a with
      | ⟨0, _⟩ => rfl
      | ⟨1, _⟩ => rfl)]
    rw [hostLog_apply]
    rw [broadcastInDim_apply _ _ _ (ix2 r (0 : Fin 1)) (ix1 r) (fun a => by
      match a with
      | ⟨0, _⟩ => rfl)]
    rw [hostReduceAdd_apply, Ideal.hostReduceAdd_single reducesTo_S100000x40_S100000_d1 reduces40, constant_apply, Ideal.ofBits_zero_f32, zero_add]
    refine congrArg Ideal.log ?_
    show ∑ k : Fin 40, Host.exp (subf L (rowMaxSpread L)) (reduces40.lift (ix1 r) k) = _
    refine Finset.sum_congr rfl fun k _ => ?_
    rw [lift_row, hostExp_apply, subf_apply, rowMaxSpread_apply]
  rw [hs]
  rfl

end Cert.ReferenceIdeal.RefOps

end
-- ==== Proof.RefValue.lean ====
/-
  The reference's run, read: the fold of its 66 host operations over the launch contents, at the result buffer, is
  `Layers.network` of the argument arrays.  The fold is cut into three stretches — up to the first hidden layer, up to
  the second, and the classifier — and each stretch's result is a stage of the network of what the stretch finds in
  the buffers it reads (the edge aggregation and the join of features are the same host operations as the kernel's;
  the dense stages are `RefOps`' lemmas).
-/
import proofs.«169921_j22385369546848_1_alg».proof.Proof.RefRun
import proofs.«169921_j22385369546848_1_alg».proof.Proof.RefOps

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.KernelIdeal.Layers Cert.ReferenceIdeal.RefOps

variable {F : FTy → Type} [FloatOps F]

/-- The contents after two stretches run one after the other. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-- The first 23 operations: the first layer's product, its aggregation over the edges, the bias and the positive part. -/
abbrev opsA : List (HloOp τ sig (Elt F)) :=
  [ binary main_arg0 main_arg4 main_v0 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    nullary main_c (constantI S_ 32 0#32),
    unary main_c main_v1 (broadcastInDim S1600000 ![] bcast_S_S1600000 : (⟨S_, .i32⟩ : BufTy).Contents (Elt F) → (⟨S1600000, .i32⟩ : BufTy).Contents (Elt F)),
    binary main_arg2 main_v1 main_v2 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v3 (broadcastInDim S1600000 ![] bcast_S_S1600000 : (⟨S_, .i32⟩ : BufTy).Contents (Elt F) → (⟨S1600000, .i32⟩ : BufTy).Contents (Elt F)),
    binary main_arg2 main_v3 main_v4 (addi : (⟨S1600000, .i32⟩ : BufTy).Contents (Elt F) → (⟨S1600000, .i32⟩ : BufTy).Contents (Elt F) → (⟨S1600000, .i32⟩ : BufTy).Contents (Elt F)),
    ternary main_v2 main_v4 main_arg2 main_v5 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v5 main_v6 (broadcastInDim S1600000x1 ![0] bcast_S1600000_S1600000x1_0 : (⟨S1600000, .i32⟩ : BufTy).Contents (Elt F) → (⟨S1600000x1, .i32⟩ : BufTy).Contents (Elt F)),
    binary main_v0 main_v6 main_v7 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg3 main_v8 (broadcastInDim S1600000x1 ![0] bcast_S1600000_S1600000x1_0 : (⟨S1600000, .f32⟩ : BufTy).Contents (Elt F) → (⟨S1600000x1, .f32⟩ : BufTy).Contents (Elt F)),
    unary main_v8 main_v9 (broadcastInDim S1600000x128 ![0, 1] bcast_S1600000x1_S1600000x128_0_1 : (⟨S1600000x1, .f32⟩ : BufTy).Contents (Elt F) → (⟨S1600000x128, .f32⟩ : BufTy).Contents (Elt F)),
    binary main_v7 main_v9 main_v10 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_arg1 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg5 main_v14 (broadcastInDim S1x128 ![1] bcast_S128_S1x128_1 : (⟨S128, .f32⟩ : BufTy).Contents (Elt F) → (⟨S1x128, .f32⟩ : BufTy).Contents (Elt F)),
    unary main_v14 main_v15 (broadcastInDim S100000x128 ![0, 1] bcast_S1x128_S100000x128_0_1 : (⟨S1x128, .f32⟩ : BufTy).Contents (Elt F) → (⟨S100000x128, .f32⟩ : BufTy).Contents (Elt F)),
    binary main_v13 main_v15 main_v16 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v16) (TRef.of (T := ⟨S100000x128, .f32⟩) main_call0_v0) (TRef.of (T := ⟨S100000x128, .f32⟩) main_v17) maximumf ]

/-- The next 23 operations: the same for the second layer, reading the first hidden layer. -/
abbrev opsB : List (HloOp τ sig (Elt F)) :=
  [ binary main_v17 main_arg6 main_v18 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_1 (constantI S_ 32 0#32),
    unary main_c_1 main_v19 (broadcastInDim S1600000 ![] bcast_S_S1600000 : (⟨S_, .i32⟩ : BufTy).Contents (Elt F) → (⟨S1600000, .i32⟩ : BufTy).Contents (Elt F)),
    binary main_arg2 main_v19 main_v20 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v21 (broadcastInDim S1600000 ![] bcast_S_S1600000 : (⟨S_, .i32⟩ : BufTy).Contents (Elt F) → (⟨S1600000, .i32⟩ : BufTy).Contents (Elt F)),
    binary main_arg2 main_v21 main_v22 (addi : (⟨S1600000, .i32⟩ : BufTy).Contents (Elt F) → (⟨S1600000, .i32⟩ : BufTy).Contents (Elt F) → (⟨S1600000, .i32⟩ : BufTy).Contents (Elt F)),
    ternary main_v20 main_v22 main_arg2 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v23 main_v24 (broadcastInDim S1600000x1 ![0] bcast_S1600000_S1600000x1_0 : (⟨S1600000, .i32⟩ : BufTy).Contents (Elt F) → (⟨S1600000x1, .i32⟩ : BufTy).Contents (Elt F)),
    binary main_v18 main_v24 main_v25 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_arg3 main_v26 (broadcastInDim S1600000x1 ![0] bcast_S1600000_S1600000x1_0 : (⟨S1600000, .f32⟩ : BufTy).Contents (Elt F) → (⟨S1600000x1, .f32⟩ : BufTy).Contents (Elt F)),
    unary main_v26 main_v27 (broadcastInDim S1600000x64 ![0, 1] bcast_S1600000x1_S1600000x64_0_1 : (⟨S1600000x1, .f32⟩ : BufTy).Contents (Elt F) → (⟨S1600000x64, .f32⟩ : BufTy).Contents (Elt F)),
    binary main_v25 main_v27 main_v28 (mulf : (⟨S1600000x64, .f32⟩ : BufTy).Contents (Elt F) → (⟨S1600000x64, .f32⟩ : BufTy).Contents (Elt F) → (⟨S1600000x64, .f32⟩ : BufTy).Contents (Elt F)),
    nullary main_cst_3 (constant S_ .f32 0x00000000#32),
    unary main_cst_3 main_v29 (broadcastInDim S100000x64 ![] bcast_S_S100000x64 : (⟨S_, .f32⟩ : BufTy).Contents (Elt F) → (⟨S100000x64, .f32⟩ : BufTy).Contents (Elt F)),
    unary main_arg1 main_v30 (broadcastInDim S1600000x1 ![0] bcast_S1600000_S1600000x1_0 : (⟨S1600000, .i32⟩ : BufTy).Contents (Elt F) → (⟨S1600000x1, .i32⟩ : BufTy).Contents (Elt F)),
    ternary main_v29 main_v30 main_v28 main_v31 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_arg7 main_v32 (broadcastInDim S1x64 ![1] bcast_S64_S1x64_1 : (⟨S64, .f32⟩ : BufTy).Contents (Elt F) → (⟨S1x64, .f32⟩ : BufTy).Contents (Elt F)),
    unary main_v32 main_v33 (broadcastInDim S100000x64 ![0, 1] bcast_S1x64_S100000x64_0_1 : (⟨S1x64, .f32⟩ : BufTy).Contents (Elt F) → (⟨S100000x64, .f32⟩ : BufTy).Contents (Elt F)),
    binary main_v31 main_v33 main_v34 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v34) (TRef.of (T := ⟨S100000x64, .f32⟩) main_call1_v0) (TRef.of (T := ⟨S100000x64, .f32⟩) main_v35) maximumf ]

/-- The last 20 operations: the join of the two hidden layers, the logits and jax's log-softmax. -/
abbrev opsC : List (HloOp τ sig (Elt F)) :=
  [ binary main_v35 main_v17 main_v36 ((fun a b => concatenate S100000x192 1 [⟨S100000x64, a⟩, ⟨S100000x128, b⟩] concatenates_S100000x64_S100000x128_S100000x192_d1) : (⟨S100000x64, .f32⟩ : BufTy).Contents (Elt F) → (⟨S100000x128, .f32⟩ : BufTy).Contents (Elt F) → (⟨S100000x192, .f32⟩ : BufTy).Contents (Elt F)),
    binary main_v36 main_arg8 main_v37 ((fun l r => Host.dotGeneral dot_S100000x192_S192x40_S100000x40_1_0_0_1_n_n none l r) : (⟨S100000x192, .f32⟩ : BufTy).Contents (Elt F) → (⟨S192x40, .f32⟩ : BufTy).Contents (Elt F) → (⟨S100000x40, .f32⟩ : BufTy).Contents (Elt F)),
    unary main_arg9 main_v38 (broadcastInDim S1x40 ![1] bcast_S40_S1x40_1 : (⟨S40, .f32⟩ : BufTy).Contents (Elt F) → (⟨S1x40, .f32⟩ : BufTy).Contents (Elt F)),
    unary main_v38 main_v39 (broadcastInDim S100000x40 ![0, 1] bcast_S1x40_S100000x40_0_1 : (⟨S1x40, .f32⟩ : BufTy).Contents (Elt F) → (⟨S100000x40, .f32⟩ : BufTy).Contents (Elt F)),
    binary main_v37 main_v39 main_v40 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call2_cst) (constant S_ .f32 0xFF800000#32),
    TRef.binary (TRef.of (T := ⟨S100000x40, .f32⟩) main_v40) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v40) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v41) subf ]

set_option maxRecDepth 65536 in
theorem ops_split : (Cert.ReferenceIdeal.RunP.ops (F := F)) = opsA ++ (opsB ++ opsC) := rfl

/-! ## The shared host operations, spelt with the reference's own records, are the kernel's -/

/-- The edge aggregation of a [100000, 128] array of node rows, in the reference's own host operations. -/
def aggregate128R (s : (⟨S100000x128, .f32⟩ : BufTy).Contents (Elt Ideal)) (row col : (⟨S1600000, .i32⟩ : BufTy).Contents (Elt Ideal)) (val : (⟨S1600000, .f32⟩ : BufTy).Contents (Elt Ideal)) : (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 row)
    (mulf (F := Ideal) (Host.gather gather_S100000x128_S1600000x1_S1600000x128_1_0_n_n_0_1_1128 s
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col)))
      (broadcastInDim S1600000x128 ![0, 1] bcast_S1600000x1_S1600000x128_0_1 (broadcastInDim S1600000x1 ![0] bcast_S1600000_S1600000x1_0 val)))

/-- The edge aggregation of a [100000, 64] array of node rows, in the reference's own host operations. -/
def aggregate64R (s : (⟨S100000x64, .f32⟩ : BufTy).Contents (Elt Ideal)) (row col : (⟨S1600000, .i32⟩ : BufTy).Contents (Elt Ideal)) (val : (⟨S1600000, .f32⟩ : BufTy).Contents (Elt Ideal)) : (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 row)
    (mulf (F := Ideal) (Host.gather gather_S100000x64_S1600000x1_S1600000x64_1_0_n_n_0_1_164 s
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col)))
      (broadcastInDim S1600000x64 ![0, 1] bcast_S1600000x1_S1600000x64_0_1 (broadcastInDim S1600000x1 ![0] bcast_S1600000_S1600000x1_0 val)))

/-- The join of the two hidden layers' features, in the reference's own operation. -/
def joinFeaturesR (a : (⟨S100000x64, .f32⟩ : BufTy).Contents (Elt Ideal)) (b : (⟨S100000x128, .f32⟩ : BufTy).Contents (Elt Ideal)) : (⟨S100000x192, .f32⟩ : BufTy).Contents (Elt Ideal) :=
  concatenate S100000x192 1 [⟨S100000x64, a⟩, ⟨S100000x128, b⟩] concatenates_S100000x64_S100000x128_S100000x192_d1

theorem aggregate128R_eq (s : (⟨S100000x128, .f32⟩ : BufTy).Contents (Elt Ideal)) (row col : (⟨S1600000, .i32⟩ : BufTy).Contents (Elt Ideal)) (val : (⟨S1600000, .f32⟩ : BufTy).Contents (Elt Ideal)) :
    aggregate128R s row col val = aggregate128 s row col val := rfl
theorem aggregate64R_eq (s : (⟨S100000x64, .f32⟩ : BufTy).Contents (Elt Ideal)) (row col : (⟨S1600000, .i32⟩ : BufTy).Contents (Elt Ideal)) (val : (⟨S1600000, .f32⟩ : BufTy).Contents (Elt Ideal)) :
    aggregate64R s row col val = aggregate64 s row col val := rfl
theorem joinFeaturesR_eq (a : (⟨S100000x64, .f32⟩ : BufTy).Contents (Elt Ideal)) (b : (⟨S100000x128, .f32⟩ : BufTy).Contents (Elt Ideal)) :
    joinFeaturesR a b = joinFeatures a b := rfl

/-! ## A value moved into a buffer of its own type and back is itself

    (the operations of a called function carry their values through the call's buffers). -/

theorem toBuf_main_call0_cst (h1 : main_call0_cst.ty = ⟨S_, .f32⟩) (h2 : main_call0_cst.space ≠ .host) (h3 : main_call0_cst.isScoped = false) (v : (⟨S_, .f32⟩ : BufTy).Contents (Elt Ideal)) :
    (TRef.of (sig := sig) (T := ⟨S_, .f32⟩) main_call0_cst h1 h2 h3).toBuf v = v := id rfl
theorem ofBuf_main_call0_cst (h1 : main_call0_cst.ty = ⟨S_, .f32⟩) (h2 : main_call0_cst.space ≠ .host) (h3 : main_call0_cst.isScoped = false) (v : (⟨S_, .f32⟩ : BufTy).Contents (Elt Ideal)) :
    (TRef.of (sig := sig) (T := ⟨S_, .f32⟩) main_call0_cst h1 h2 h3).ofBuf v = v := id rfl
theorem toBuf_main_call0_v0 (h1 : main_call0_v0.ty = ⟨S100000x128, .f32⟩) (h2 : main_call0_v0.space ≠ .host) (h3 : main_call0_v0.isScoped = false) (v : (⟨S100000x128, .f32⟩ : BufTy).Contents (Elt Ideal)) :
    (TRef.of (sig := sig) (T := ⟨S100000x128, .f32⟩) main_call0_v0 h1 h2 h3).toBuf v = v := id rfl
theorem ofBuf_main_call0_v0 (h1 : main_call0_v0.ty = ⟨S100000x128, .f32⟩) (h2 : main_call0_v0.space ≠ .host) (h3 : main_call0_v0.isScoped = false) (v : (⟨S100000x128, .f32⟩ : BufTy).Contents (Elt Ideal)) :
    (TRef.of (sig := sig) (T := ⟨S100000x128, .f32⟩) main_call0_v0 h1 h2 h3).ofBuf v = v := id rfl
theorem toBuf_main_v16 (h1 : main_v16.ty = ⟨S100000x128, .f32⟩) (h2 : main_v16.space ≠ .host) (h3 : main_v16.isScoped = false) (v : (⟨S100000x128, .f32⟩ : BufTy).Contents (Elt Ideal)) :
    (TRef.of (sig := sig) (T := ⟨S100000x128, .f32⟩) main_v16 h1 h2 h3).toBuf v = v := id rfl
theorem ofBuf_main_v16 (h1 : main_v16.ty = ⟨S100000x128, .f32⟩) (h2 : main_v16.space ≠ .host) (h3 : main_v16.isScoped = false) (v : (⟨S100000x128, .f32⟩ : BufTy).Contents (Elt Ideal)) :
    (TRef.of (sig := sig) (T := ⟨S100000x128, .f32⟩) main_v16 h1 h2 h3).ofBuf v = v := id rfl
theorem toBuf_main_v17 (h1 : main_v17.ty = ⟨S100000x128, .f32⟩) (h2 : main_v17.space ≠ .host) (h3 : main_v17.isScoped = false) (v : (⟨S100000x128, .f32⟩ : BufTy).Contents (Elt Ideal)) :
    (TRef.of (sig := sig) (T := ⟨S100000x128, .f32⟩) main_v17 h1 h2 h3).toBuf v = v := id rfl
theorem ofBuf_main_v17 (h1 : main_v17.ty = ⟨S100000x128, .f32⟩) (h2 : main_v17.space ≠ .host) (h3 : main_v17.isScoped = false) (v : (⟨S100000x128, .f32⟩ : BufTy).Contents (Elt Ideal)) :
    (TRef.of (sig := sig) (T := ⟨S100000x128, .f32⟩) main_v17 h1 h2 h3).ofBuf v = v := id rfl
theorem toBuf_main_call1_cst (h1 : main_call1_cst.ty = ⟨S_, .f32⟩) (h2 : main_call1_cst.space ≠ .host) (h3 : main_call1_cst.isScoped = false) (v : (⟨S_, .f32⟩ : BufTy).Contents (Elt Ideal)) :
    (TRef.of (sig := sig) (T := ⟨S_, .f32⟩) main_call1_cst h1 h2 h3).toBuf v = v := id rfl
theorem ofBuf_main_call1_cst (h1 : main_call1_cst.ty = ⟨S_, .f32⟩) (h2 : main_call1_cst.space ≠ .host) (h3 : main_call1_cst.isScoped = false) (v : (⟨S_, .f32⟩ : BufTy).Contents (Elt Ideal)) :
    (TRef.of (sig := sig) (T := ⟨S_, .f32⟩) main_call1_cst h1 h2 h3).ofBuf v = v := id rfl
theorem toBuf_main_call1_v0 (h1 : main_call1_v0.ty = ⟨S100000x64, .f32⟩) (h2 : main_call1_v0.space ≠ .host) (h3 : main_call1_v0.isScoped = false) (v : (⟨S100000x64, .f32⟩ : BufTy).Contents (Elt Ideal)) :
    (TRef.of (sig := sig) (T := ⟨S100000x64, .f32⟩) main_call1_v0 h1 h2 h3).toBuf v = v := id rfl
theorem ofBuf_main_call1_v0 (h1 : main_call1_v0.ty = ⟨S100000x64, .f32⟩) (h2 : main_call1_v0.space ≠ .host) (h3 : main_call1_v0.isScoped = false) (v : (⟨S100000x64, .f32⟩ : BufTy).Contents (Elt Ideal)) :
    (TRef.of (sig := sig) (T := ⟨S100000x64, .f32⟩) main_call1_v0 h1 h2 h3).ofBuf v = v := id rfl
theorem toBuf_main_v34 (h1 : main_v34.ty = ⟨S100000x64, .f32⟩) (h2 : main_v34.space ≠ .host) (h3 : main_v34.isScoped = false) (v : (⟨S100000x64, .f32⟩ : BufTy).Contents (Elt Ideal)) :
    (TRef.of (sig := sig) (T := ⟨S100000x64, .f32⟩) main_v34 h1 h2 h3).toBuf v = v := id rfl
theorem ofBuf_main_v34 (h1 : main_v34.ty = ⟨S100000x64, .f32⟩) (h2 : main_v34.space ≠ .host) (h3 : main_v34.isScoped = false) (v : (⟨S100000x64, .f32⟩ : BufTy).Contents (Elt Ideal)) :
    (TRef.of (sig := sig) (T := ⟨S100000x64, .f32⟩) main_v34 h1 h2 h3).ofBuf v = v := id rfl
theorem toBuf_main_v35 (h1 : main_v35.ty = ⟨S100000x64, .f32⟩) (h2 : main_v35.space ≠ .host) (h3 : main_v35.isScoped = false) (v : (⟨S100000x64, .f32⟩ : BufTy).Contents (Elt Ideal)) :
    (TRef.of (sig := sig) (T := ⟨S100000x64, .f32⟩) main_v35 h1 h2 h3).toBuf v = v := id rfl
theorem ofBuf_main_v35 (h1 : main_v35.ty = ⟨S100000x64, .f32⟩) (h2 : main_v35.space ≠ .host) (h3 : main_v35.isScoped = false) (v : (⟨S100000x64, .f32⟩ : BufTy).Contents (Elt Ideal)) :
    (TRef.of (sig := sig) (T := ⟨S100000x64, .f32⟩) main_v35 h1 h2 h3).ofBuf v = v := id rfl
theorem toBuf_main_call2_cst (h1 : main_call2_cst.ty = ⟨S_, .f32⟩) (h2 : main_call2_cst.space ≠ .host) (h3 : main_call2_cst.isScoped = false) (v : (⟨S_, .f32⟩ : BufTy).Contents (Elt Ideal)) :
    (TRef.of (sig := sig) (T := ⟨S_, .f32⟩) main_call2_cst h1 h2 h3).toBuf v = v := id rfl
theorem ofBuf_main_call2_cst (h1 : main_call2_cst.ty = ⟨S_, .f32⟩) (h2 : main_call2_cst.space ≠ .host) (h3 : main_call2_cst.isScoped = false) (v : (⟨S_, .f32⟩ : BufTy).Contents (Elt Ideal)) :
    (TRef.of (sig := sig) (T := ⟨S_, .f32⟩) main_call2_cst h1 h2 h3).ofBuf v = v := id rfl
theorem toBuf_main_v40 (h1 : main_v40.ty = ⟨S100000x40, .f32⟩) (h2 : main_v40.space ≠ .host) (h3 : main_v40.isScoped = false) (v : (⟨S100000x40, .f32⟩ : BufTy).Contents (Elt Ideal)) :
    (TRef.of (sig := sig) (T := ⟨S100000x40, .f32⟩) main_v40 h1 h2 h3).toBuf v = v := id rfl
theorem ofBuf_main_v40 (h1 : main_v40.ty = ⟨S100000x40, .f32⟩) (h2 : main_v40.space ≠ .host) (h3 : main_v40.isScoped = false) (v : (⟨S100000x40, .f32⟩ : BufTy).Contents (Elt Ideal)) :
    (TRef.of (sig := sig) (T := ⟨S100000x40, .f32⟩) main_v40 h1 h2 h3).ofBuf v = v := id rfl
theorem toBuf_main_call2_v0 (h1 : main_call2_v0.ty = ⟨S100000, .f32⟩) (h2 : main_call2_v0.space ≠ .host) (h3 : main_call2_v0.isScoped = false) (v : (⟨S100000, .f32⟩ : BufTy).Contents (Elt Ideal)) :
    (TRef.of (sig := sig) (T := ⟨S100000, .f32⟩) main_call2_v0 h1 h2 h3).toBuf v = v := id rfl
theorem ofBuf_main_call2_v0 (h1 : main_call2_v0.ty = ⟨S100000, .f32⟩) (h2 : main_call2_v0.space ≠ .host) (h3 : main_call2_v0.isScoped = false) (v : (⟨S100000, .f32⟩ : BufTy).Contents (Elt Ideal)) :
    (TRef.of (sig := sig) (T := ⟨S100000, .f32⟩) main_call2_v0 h1 h2 h3).ofBuf v = v := id rfl
theorem toBuf_main_call2_cst_0 (h1 : main_call2_cst_0.ty = ⟨S_, .f32⟩) (h2 : main_call2_cst_0.space ≠ .host) (h3 : main_call2_cst_0.isScoped = false) (v : (⟨S_, .f32⟩ : BufTy).Contents (Elt Ideal)) :
    (TRef.of (sig := sig) (T := ⟨S_, .f32⟩) main_call2_cst_0 h1 h2 h3).toBuf v = v := id rfl
theorem ofBuf_main_call2_cst_0 (h1 : main_call2_cst_0.ty = ⟨S_, .f32⟩) (h2 : main_call2_cst_0.space ≠ .host) (h3 : main_call2_cst_0.isScoped = false) (v : (⟨S_, .f32⟩ : BufTy).Contents (Elt Ideal)) :
    (TRef.of (sig := sig) (T := ⟨S_, .f32⟩) main_call2_cst_0 h1 h2 h3).ofBuf v = v := id rfl
theorem toBuf_main_call2_v1 (h1 : main_call2_v1.ty = ⟨S100000, .f32⟩) (h2 : main_call2_v1.space ≠ .host) (h3 : main_call2_v1.isScoped = false) (v : (⟨S100000, .f32⟩ : BufTy).Contents (Elt Ideal)) :
    (TRef.of (sig := sig) (T := ⟨S100000, .f32⟩) main_call2_v1 h1 h2 h3).toBuf v = v := id rfl
theorem ofBuf_main_call2_v1 (h1 : main_call2_v1.ty = ⟨S100000, .f32⟩) (h2 : main_call2_v1.space ≠ .host) (h3 : main_call2_v1.isScoped = false) (v : (⟨S100000, .f32⟩ : BufTy).Contents (Elt Ideal)) :
    (TRef.of (sig := sig) (T := ⟨S100000, .f32⟩) main_call2_v1 h1 h2 h3).ofBuf v = v := id rfl
theorem toBuf_main_call2_v2 (h1 : main_call2_v2.ty = ⟨S100000, .f32⟩) (h2 : main_call2_v2.space ≠ .host) (h3 : main_call2_v2.isScoped = false) (v : (⟨S100000, .f32⟩ : BufTy).Contents (Elt Ideal)) :
    (TRef.of (sig := sig) (T := ⟨S100000, .f32⟩) main_call2_v2 h1 h2 h3).toBuf v = v := id rfl
theorem ofBuf_main_call2_v2 (h1 : main_call2_v2.ty = ⟨S100000, .f32⟩) (h2 : main_call2_v2.space ≠ .host) (h3 : main_call2_v2.isScoped = false) (v : (⟨S100000, .f32⟩ : BufTy).Contents (Elt Ideal)) :
    (TRef.of (sig := sig) (T := ⟨S100000, .f32⟩) main_call2_v2 h1 h2 h3).ofBuf v = v := id rfl
theorem toBuf_main_call2_v3 (h1 : main_call2_v3.ty = ⟨S100000x1, .f32⟩) (h2 : main_call2_v3.space ≠ .host) (h3 : main_call2_v3.isScoped = false) (v : (⟨S100000x1, .f32⟩ : BufTy).Contents (Elt Ideal)) :
    (TRef.of (sig := sig) (T := ⟨S100000x1, .f32⟩) main_call2_v3 h1 h2 h3).toBuf v = v := id rfl
theorem ofBuf_main_call2_v3 (h1 : main_call2_v3.ty = ⟨S100000x1, .f32⟩) (h2 : main_call2_v3.space ≠ .host) (h3 : main_call2_v3.isScoped = false) (v : (⟨S100000x1, .f32⟩ : BufTy).Contents (Elt Ideal)) :
    (TRef.of (sig := sig) (T := ⟨S100000x1, .f32⟩) main_call2_v3 h1 h2 h3).ofBuf v = v := id rfl
theorem toBuf_main_call2_v4 (h1 : main_call2_v4.ty = ⟨S100000x40, .f32⟩) (h2 : main_call2_v4.space ≠ .host) (h3 : main_call2_v4.isScoped = false) (v : (⟨S100000x40, .f32⟩ : BufTy).Contents (Elt Ideal)) :
    (TRef.of (sig := sig) (T := ⟨S100000x40, .f32⟩) main_call2_v4 h1 h2 h3).toBuf v = v := id rfl
theorem ofBuf_main_call2_v4 (h1 : main_call2_v4.ty = ⟨S100000x40, .f32⟩) (h2 : main_call2_v4.space ≠ .host) (h3 : main_call2_v4.isScoped = false) (v : (⟨S100000x40, .f32⟩ : BufTy).Contents (Elt Ideal)) :
    (TRef.of (sig := sig) (T := ⟨S100000x40, .f32⟩) main_call2_v4 h1 h2 h3).ofBuf v = v := id rfl
theorem toBuf_main_call2_v5 (h1 : main_call2_v5.ty = ⟨S100000x40, .f32⟩) (h2 : main_call2_v5.space ≠ .host) (h3 : main_call2_v5.isScoped = false) (v : (⟨S100000x40, .f32⟩ : BufTy).Contents (Elt Ideal)) :
    (TRef.of (sig := sig) (T := ⟨S100000x40, .f32⟩) main_call2_v5 h1 h2 h3).toBuf v = v := id rfl
theorem ofBuf_main_call2_v5 (h1 : main_call2_v5.ty = ⟨S100000x40, .f32⟩) (h2 : main_call2_v5.space ≠ .host) (h3 : main_call2_v5.isScoped = false) (v : (⟨S100000x40, .f32⟩ : BufTy).Contents (Elt Ideal)) :
    (TRef.of (sig := sig) (T := ⟨S100000x40, .f32⟩) main_call2_v5 h1 h2 h3).ofBuf v = v := id rfl
theorem toBuf_main_call2_v6 (h1 : main_call2_v6.ty = ⟨S100000x40, .f32⟩) (h2 : main_call2_v6.space ≠ .host) (h3 : main_call2_v6.isScoped = false) (v : (⟨S100000x40, .f32⟩ : BufTy).Contents (Elt Ideal)) :
    (TRef.of (sig := sig) (T := ⟨S100000x40, .f32⟩) main_call2_v6 h1 h2 h3).toBuf v = v := id rfl
theorem ofBuf_main_call2_v6 (h1 : main_call2_v6.ty = ⟨S100000x40, .f32⟩) (h2 : main_call2_v6.space ≠ .host) (h3 : main_call2_v6.isScoped = false) (v : (⟨S100000x40, .f32⟩ : BufTy).Contents (Elt Ideal)) :
    (TRef.of (sig := sig) (T := ⟨S100000x40, .f32⟩) main_call2_v6 h1 h2 h3).ofBuf v = v := id rfl
theorem toBuf_main_call2_cst_1 (h1 : main_call2_cst_1.ty = ⟨S_, .f32⟩) (h2 : main_call2_cst_1.space ≠ .host) (h3 : main_call2_cst_1.isScoped = false) (v : (⟨S_, .f32⟩ : BufTy).Contents (Elt Ideal)) :
    (TRef.of (sig := sig) (T := ⟨S_, .f32⟩) main_call2_cst_1 h1 h2 h3).toBuf v = v := id rfl
theorem ofBuf_main_call2_cst_1 (h1 : main_call2_cst_1.ty = ⟨S_, .f32⟩) (h2 : main_call2_cst_1.space ≠ .host) (h3 : main_call2_cst_1.isScoped = false) (v : (⟨S_, .f32⟩ : BufTy).Contents (Elt Ideal)) :
    (TRef.of (sig := sig) (T := ⟨S_, .f32⟩) main_call2_cst_1 h1 h2 h3).ofBuf v = v := id rfl
theorem toBuf_main_call2_v7 (h1 : main_call2_v7.ty = ⟨S100000, .f32⟩) (h2 : main_call2_v7.space ≠ .host) (h3 : main_call2_v7.isScoped = false) (v : (⟨S100000, .f32⟩ : BufTy).Contents (Elt Ideal)) :
    (TRef.of (sig := sig) (T := ⟨S100000, .f32⟩) main_call2_v7 h1 h2 h3).toBuf v = v := id rfl
theorem ofBuf_main_call2_v7 (h1 : main_call2_v7.ty = ⟨S100000, .f32⟩) (h2 : main_call2_v7.space ≠ .host) (h3 : main_call2_v7.isScoped = false) (v : (⟨S100000, .f32⟩ : BufTy).Contents (Elt Ideal)) :
    (TRef.of (sig := sig) (T := ⟨S100000, .f32⟩) main_call2_v7 h1 h2 h3).ofBuf v = v := id rfl
theorem toBuf_main_call2_v8 (h1 : main_call2_v8.ty = ⟨S100000x1, .f32⟩) (h2 : main_call2_v8.space ≠ .host) (h3 : main_call2_v8.isScoped = false) (v : (⟨S100000x1, .f32⟩ : BufTy).Contents (Elt Ideal)) :
    (TRef.of (sig := sig) (T := ⟨S100000x1, .f32⟩) main_call2_v8 h1 h2 h3).toBuf v = v := id rfl
theorem ofBuf_main_call2_v8 (h1 : main_call2_v8.ty = ⟨S100000x1, .f32⟩) (h2 : main_call2_v8.space ≠ .host) (h3 : main_call2_v8.isScoped = false) (v : (⟨S100000x1, .f32⟩ : BufTy).Contents (Elt Ideal)) :
    (TRef.of (sig := sig) (T := ⟨S100000x1, .f32⟩) main_call2_v8 h1 h2 h3).ofBuf v = v := id rfl
theorem toBuf_main_call2_v9 (h1 : main_call2_v9.ty = ⟨S100000x1, .f32⟩) (h2 : main_call2_v9.space ≠ .host) (h3 : main_call2_v9.isScoped = false) (v : (⟨S100000x1, .f32⟩ : BufTy).Contents (Elt Ideal)) :
    (TRef.of (sig := sig) (T := ⟨S100000x1, .f32⟩) main_call2_v9 h1 h2 h3).toBuf v = v := id rfl
theorem ofBuf_main_call2_v9 (h1 : main_call2_v9.ty = ⟨S100000x1, .f32⟩) (h2 : main_call2_v9.space ≠ .host) (h3 : main_call2_v9.isScoped = false) (v : (⟨S100000x1, .f32⟩ : BufTy).Contents (Elt Ideal)) :
    (TRef.of (sig := sig) (T := ⟨S100000x1, .f32⟩) main_call2_v9 h1 h2 h3).ofBuf v = v := id rfl
theorem toBuf_main_call2_v10 (h1 : main_call2_v10.ty = ⟨S100000x40, .f32⟩) (h2 : main_call2_v10.space ≠ .host) (h3 : main_call2_v10.isScoped = false) (v : (⟨S100000x40, .f32⟩ : BufTy).Contents (Elt Ideal)) :
    (TRef.of (sig := sig) (T := ⟨S100000x40, .f32⟩) main_call2_v10 h1 h2 h3).toBuf v = v := id rfl
theorem ofBuf_main_call2_v10 (h1 : main_call2_v10.ty = ⟨S100000x40, .f32⟩) (h2 : main_call2_v10.space ≠ .host) (h3 : main_call2_v10.isScoped = false) (v : (⟨S100000x40, .f32⟩ : BufTy).Contents (Elt Ideal)) :
    (TRef.of (sig := sig) (T := ⟨S100000x40, .f32⟩) main_call2_v10 h1 h2 h3).ofBuf v = v := id rfl
theorem toBuf_main_v41 (h1 : main_v41.ty = ⟨S100000x40, .f32⟩) (h2 : main_v41.space ≠ .host) (h3 : main_v41.isScoped = false) (v : (⟨S100000x40, .f32⟩ : BufTy).Contents (Elt Ideal)) :
    (TRef.of (sig := sig) (T := ⟨S100000x40, .f32⟩) main_v41 h1 h2 h3).toBuf v = v := id rfl
theorem ofBuf_main_v41 (h1 : main_v41.ty = ⟨S100000x40, .f32⟩) (h2 : main_v41.space ≠ .host) (h3 : main_v41.isScoped = false) (v : (⟨S100000x40, .f32⟩ : BufTy).Contents (Elt Ideal)) :
    (TRef.of (sig := sig) (T := ⟨S100000x40, .f32⟩) main_v41 h1 h2 h3).ofBuf v = v := id rfl

variable (V : Valuation τ sig (Elt Ideal))

/-! ## The first stretch -/

set_option maxHeartbeats 4000000 in
theorem stageA : after (opsA (F := Ideal)) V (Proc.devRef .tc main_v17)
    = hidden1 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  have e : after (opsA (F := Ideal)) V (Proc.devRef .tc main_v17)
      = maximumf (addf (aggregate128R (Host.dotGeneral (F := Ideal) (φ₁ := .f32) (φ₂ := .f32) dot_S100000x256_S256x128_S100000x128_1_0_0_1_n_n none (V (Proc.devRef .tc main_arg0)) (V (Proc.devRef .tc main_arg4))) (V (Proc.devRef .tc main_arg1)) (V (Proc.devRef .tc main_arg2)) (V (Proc.devRef .tc main_arg3)))
          (broadcastInDim S100000x128 ![0, 1] bcast_S1x128_S100000x128_0_1 (broadcastInDim S1x128 ![1] bcast_S128_S1x128_1 (V (Proc.devRef .tc main_arg5)))))
        (broadcastInDim S100000x128 ![] bcast_S_S100000x128 (constant (F := Ideal) S_ .f32 0x00000000#32)) := by
    after_results_simp
    simp only [toBuf_main_call0_cst, ofBuf_main_call0_cst, toBuf_main_call0_v0, ofBuf_main_call0_v0, toBuf_main_v16, ofBuf_main_v16, toBuf_main_v17, ofBuf_main_v17]
    unfold aggregate128R
    rfl
  rw [e, aggregate128R_eq, biasRelu128_eq, dot1_eq]
  rfl
theorem keepA_arg1 : after (opsA (F := Ideal)) V (Proc.devRef .tc main_arg1) = V (Proc.devRef .tc main_arg1) := by after_results_simp
theorem keepA_arg2 : after (opsA (F := Ideal)) V (Proc.devRef .tc main_arg2) = V (Proc.devRef .tc main_arg2) := by after_results_simp
theorem keepA_arg3 : after (opsA (F := Ideal)) V (Proc.devRef .tc main_arg3) = V (Proc.devRef .tc main_arg3) := by after_results_simp
theorem keepA_arg6 : after (opsA (F := Ideal)) V (Proc.devRef .tc main_arg6) = V (Proc.devRef .tc main_arg6) := by after_results_simp
theorem keepA_arg7 : after (opsA (F := Ideal)) V (Proc.devRef .tc main_arg7) = V (Proc.devRef .tc main_arg7) := by after_results_simp
theorem keepA_arg8 : after (opsA (F := Ideal)) V (Proc.devRef .tc main_arg8) = V (Proc.devRef .tc main_arg8) := by after_results_simp
theorem keepA_arg9 : after (opsA (F := Ideal)) V (Proc.devRef .tc main_arg9) = V (Proc.devRef .tc main_arg9) := by after_results_simp

/-! ## The second stretch -/

set_option maxHeartbeats 4000000 in
theorem stageB : after (opsB (F := Ideal)) V (Proc.devRef .tc main_v35)
    = Cert.Spec.biasRelu (n := 100000) (d := 64)
        (aggregate64 (Cert.Spec.matMul (n := 100000) (k := 128) (p := 64) (V (Proc.devRef .tc main_v17)) (V (Proc.devRef .tc main_arg6))) (V (Proc.devRef .tc main_arg1)) (V (Proc.devRef .tc main_arg2)) (V (Proc.devRef .tc main_arg3))) (biasRow64 (V (Proc.devRef .tc main_arg7))) := by
  have e : after (opsB (F := Ideal)) V (Proc.devRef .tc main_v35)
      = maximumf (addf (aggregate64R (Host.dotGeneral (F := Ideal) (φ₁ := .f32) (φ₂ := .f32) dot_S100000x128_S128x64_S100000x64_1_0_0_1_n_n none (V (Proc.devRef .tc main_v17)) (V (Proc.devRef .tc main_arg6))) (V (Proc.devRef .tc main_arg1)) (V (Proc.devRef .tc main_arg2)) (V (Proc.devRef .tc main_arg3)))
          (broadcastInDim S100000x64 ![0, 1] bcast_S1x64_S100000x64_0_1 (broadcastInDim S1x64 ![1] bcast_S64_S1x64_1 (V (Proc.devRef .tc main_arg7)))))
        (broadcastInDim S100000x64 ![] bcast_S_S100000x64 (constant (F := Ideal) S_ .f32 0x00000000#32)) := by
    after_results_simp
    simp only [toBuf_main_call1_cst, ofBuf_main_call1_cst, toBuf_main_call1_v0, ofBuf_main_call1_v0, toBuf_main_v34, ofBuf_main_v34, toBuf_main_v35, ofBuf_main_v35]
    unfold aggregate64R
    rfl
  rw [e, aggregate64R_eq, biasRelu64_eq, dot2_eq]
theorem keepB_v17 : after (opsB (F := Ideal)) V (Proc.devRef .tc main_v17) = V (Proc.devRef .tc main_v17) := by after_results_simp
theorem keepB_arg8 : after (opsB (F := Ideal)) V (Proc.devRef .tc main_arg8) = V (Proc.devRef .tc main_arg8) := by after_results_simp
theorem keepB_arg9 : after (opsB (F := Ideal)) V (Proc.devRef .tc main_arg9) = V (Proc.devRef .tc main_arg9) := by after_results_simp

/-! ## The third stretch -/

set_option maxHeartbeats 4000000 in
theorem stageC : after (opsC (F := Ideal)) V (Proc.devRef .tc main_v41)
    = Cert.Spec.linLogSoftmax (n := 100000) (k := 192) (p := 40) Cert.KernelIdeal.Layers.bot
        (joinFeatures (V (Proc.devRef .tc main_v35)) (V (Proc.devRef .tc main_v17))) (V (Proc.devRef .tc main_arg8)) (biasRow40 (V (Proc.devRef .tc main_arg9))) := by
  have e : after (opsC (F := Ideal)) V (Proc.devRef .tc main_v41)
      = hostLogSoftmax (addf (Host.dotGeneral (F := Ideal) (φ₁ := .f32) (φ₂ := .f32) dot_S100000x192_S192x40_S100000x40_1_0_0_1_n_n none
            (joinFeaturesR (V (Proc.devRef .tc main_v35)) (V (Proc.devRef .tc main_v17))) (V (Proc.devRef .tc main_arg8)))
          (broadcastInDim S100000x40 ![0, 1] bcast_S1x40_S100000x40_0_1 (broadcastInDim S1x40 ![1] bcast_S40_S1x40_1 (V (Proc.devRef .tc main_arg9))))) := by
    after_results_simp
    simp only [toBuf_main_call2_cst, ofBuf_main_call2_cst, toBuf_main_v40, ofBuf_main_v40, toBuf_main_call2_v0, ofBuf_main_call2_v0, toBuf_main_call2_cst_0, ofBuf_main_call2_cst_0, toBuf_main_call2_v1, ofBuf_main_call2_v1, toBuf_main_call2_v2, ofBuf_main_call2_v2, toBuf_main_call2_v3, ofBuf_main_call2_v3, toBuf_main_call2_v4, ofBuf_main_call2_v4, toBuf_main_call2_v5, ofBuf_main_call2_v5, toBuf_main_call2_v6, ofBuf_main_call2_v6, toBuf_main_call2_cst_1, ofBuf_main_call2_cst_1, toBuf_main_call2_v7, ofBuf_main_call2_v7, toBuf_main_call2_v8, ofBuf_main_call2_v8, toBuf_main_call2_v9, ofBuf_main_call2_v9, toBuf_main_call2_v10, ofBuf_main_call2_v10, toBuf_main_v41, ofBuf_main_v41]
    unfold hostLogSoftmax rowMaxSpread joinFeaturesR
    rfl
  rw [e, joinFeaturesR_eq, hostLogSoftmax_eq, logits_eq]
  rfl

/-! ## The whole run -/

/-- THE RESULT: the fold of the reference's operations over the launch contents, at the result buffer, is the network's
    output on the argument arrays. -/
theorem result_eq (m : (ℓ : Loc nD τ sig) → Buf (Elt Ideal) ℓ) (c : Dev nD) :
    after (Cert.ReferenceIdeal.RunP.ops (F := Ideal)) (launchContents m c) (Proc.devRef .tc main_v41)
    = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [ops_split (F := Ideal), after_append, after_append, stageC, stageB, keepB_v17, keepB_arg8, keepB_arg9, stageA,
    keepA_arg1, keepA_arg2, keepA_arg3, keepA_arg6, keepA_arg7, keepA_arg8, keepA_arg9]
  rfl

/-! ## The arguments end as launched: no operation writes one -/

set_option maxHeartbeats 4000000

theorem arg0_kept (m : (ℓ : Loc nD τ sig) → Buf (Elt Ideal) ℓ) (c : Dev nD) :
    after (Cert.ReferenceIdeal.RunP.ops (F := Ideal)) (launchContents m c) (Proc.devRef .tc main_arg0) = m ((c.tc : Thread nD τ).loc main_arg0) := by
  after_results_simp <;> rfl
theorem arg1_kept (m : (ℓ : Loc nD τ sig) → Buf (Elt Ideal) ℓ) (c : Dev nD) :
    after (Cert.ReferenceIdeal.RunP.ops (F := Ideal)) (launchContents m c) (Proc.devRef .tc main_arg1) = m ((c.tc : Thread nD τ).loc main_arg1) := by
  after_results_simp <;> rfl
theorem arg2_kept (m : (ℓ : Loc nD τ sig) → Buf (Elt Ideal) ℓ) (c : Dev nD) :
    after (Cert.ReferenceIdeal.RunP.ops (F := Ideal)) (launchContents m c) (Proc.devRef .tc main_arg2) = m ((c.tc : Thread nD τ).loc main_arg2) := by
  after_results_simp <;> rfl
theorem arg3_kept (m : (ℓ : Loc nD τ sig) → Buf (Elt Ideal) ℓ) (c : Dev nD) :
    after (Cert.ReferenceIdeal.RunP.ops (F := Ideal)) (launchContents m c) (Proc.devRef .tc main_arg3) = m ((c.tc : Thread nD τ).loc main_arg3) := by
  after_results_simp <;> rfl
theorem arg4_kept (m : (ℓ : Loc nD τ sig) → Buf (Elt Ideal) ℓ) (c : Dev nD) :
    after (Cert.ReferenceIdeal.RunP.ops (F := Ideal)) (launchContents m c) (Proc.devRef .tc main_arg4) = m ((c.tc : Thread nD τ).loc main_arg4) := by
  after_results_simp <;> rfl
theorem arg5_kept (m : (ℓ : Loc nD τ sig) → Buf (Elt Ideal) ℓ) (c : Dev nD) :
    after (Cert.ReferenceIdeal.RunP.ops (F := Ideal)) (launchContents m c) (Proc.devRef .tc main_arg5) = m ((c.tc : Thread nD τ).loc main_arg5) := by
  after_results_simp <;> rfl
theorem arg6_kept (m : (ℓ : Loc nD τ sig) → Buf (Elt Ideal) ℓ) (c : Dev nD) :
    after (Cert.ReferenceIdeal.RunP.ops (F := Ideal)) (launchContents m c) (Proc.devRef .tc main_arg6) = m ((c.tc : Thread nD τ).loc main_arg6) := by
  after_results_simp <;> rfl
theorem arg7_kept (m : (ℓ : Loc nD τ sig) → Buf (Elt Ideal) ℓ) (c : Dev nD) :
    after (Cert.ReferenceIdeal.RunP.ops (F := Ideal)) (launchContents m c) (Proc.devRef .tc main_arg7) = m ((c.tc : Thread nD τ).loc main_arg7) := by
  after_results_simp <;> rfl
theorem arg8_kept (m : (ℓ : Loc nD τ sig) → Buf (Elt Ideal) ℓ) (c : Dev nD) :
    after (Cert.ReferenceIdeal.RunP.ops (F := Ideal)) (launchContents m c) (Proc.devRef .tc main_arg8) = m ((c.tc : Thread nD τ).loc main_arg8) := by
  after_results_simp <;> rfl
theorem arg9_kept (m : (ℓ : Loc nD τ sig) → Buf (Elt Ideal) ℓ) (c : Dev nD) :
    after (Cert.ReferenceIdeal.RunP.ops (F := Ideal)) (launchContents m c) (Proc.devRef .tc main_arg9) = m ((c.tc : Thread nD τ).loc main_arg9) := by
  after_results_simp <;> rfl

end Cert.ReferenceIdeal.RefValue

end
-- ==== Proof.lean ====
/-
  The certificate of a two-layer graph convolution with a linear classifier and a row-wise log-softmax, tiled over
  20 blocks of 5000 of its 100000 nodes, against its plain reference.

  Both programs compute, over the extended reals,
      h1  = max (A (x · w1) + b1) 0,     h2 = max (A (h1 · w2) + b2) 0,     out = log-softmax ((h2 | h1) · wl + bl),
  where A gathers each edge's source row, scales it by the edge's weight and adds it into the edge's destination row.
  The kernel computes the three products, the two bias-and-positive-part stages and the classifier in five tiled
  regions (a change of float format is the identity on the extended reals and a product into a zero accumulator is the
  plain sum; a row's log-softmax reads that row only, so a block of rows is computed from that block alone), and A on
  the host; the reference computes everything on the host.  A is the same host computation in both and is never opened.
  No law that needs finiteness is used: every step is a reading of the same sums in the same order.

  * `Spec`, `SpecLaws`: the three dense stages as functions on whole arrays, and their row-locality;
  * `MatMul0`, `BiasRelu1`, `MatMul2`, `BiasRelu3`, `Classifier4`: each region's output array is its stage of the
    arrays the region finds (the body at one entry of a block; the twenty blocks tile the rows);
  * `Layers`: the network as one function of the ten argument arrays;
  * `KernelRun`, `KernelValue`: the kernel's run with its result read, and that result is `Layers.network`;
  * `RefRun`, `RefOps`, `RefValue`: the reference's run, its stages as `Spec`'s functions, and its result is
    `Layers.network` too.
-/
import proofs.«169921_j22385369546848_1_alg».proof.Defs
import proofs.«169921_j22385369546848_1_alg».proof.Proof.Gen.Kernel
import proofs.«169921_j22385369546848_1_alg».proof.Proof.Gen.Kernel.Skeleton
import proofs.«169921_j22385369546848_1_alg».proof.Proof.Gen.Kernel.Launch
import proofs.«169921_j22385369546848_1_alg».proof.Proof.Gen.Kernel.Points
import proofs.«169921_j22385369546848_1_alg».proof.Proof.Gen.Kernel.Frame
import proofs.«169921_j22385369546848_1_alg».proof.Proof.Gen.KernelIdeal
import proofs.«169921_j22385369546848_1_alg».proof.Proof.Gen.KernelIdeal.Skeleton
import proofs.«169921_j22385369546848_1_alg».proof.Proof.Gen.KernelIdeal.Launch
import proofs.«169921_j22385369546848_1_alg».proof.Proof.Gen.KernelIdeal.Points
import proofs.«169921_j22385369546848_1_alg».proof.Proof.Gen.KernelIdeal.Frame
import proofs.«169921_j22385369546848_1_alg».proof.Proof.Gen.ReferenceIdeal
import proofs.«169921_j22385369546848_1_alg».proof.Proof.Gen.Pre_finite_inputs
import proofs.«169921_j22385369546848_1_alg».proof.Proof.KernelRun
import proofs.«169921_j22385369546848_1_alg».proof.Proof.KernelValue
import proofs.«169921_j22385369546848_1_alg».proof.Proof.RefRun
import proofs.«169921_j22385369546848_1_alg».proof.Proof.RefValue
import Idealize.ShloMosaic.Adequacy
import Idealize.ShloMosaic.Init

set_option maxRecDepth 16384

noncomputable section

namespace Cert.Proof

open Idealize.ShloMosaic Idealize.SL.Sem

/-- The word-level kernel runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- The idealized kernel runs and leaves its arguments as launched. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and leaves its arguments as launched: no host operation writes an argument. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c =>
    ⟨(h c Cert.ReferenceIdeal.main_arg0).trans (Cert.ReferenceIdeal.RefValue.arg0_kept m c),
     (h c Cert.ReferenceIdeal.main_arg1).trans (Cert.ReferenceIdeal.RefValue.arg1_kept m c),
     (h c Cert.ReferenceIdeal.main_arg2).trans (Cert.ReferenceIdeal.RefValue.arg2_kept m c),
     (h c Cert.ReferenceIdeal.main_arg3).trans (Cert.ReferenceIdeal.RefValue.arg3_kept m c),
     (h c Cert.ReferenceIdeal.main_arg4).trans (Cert.ReferenceIdeal.RefValue.arg4_kept m c),
     (h c Cert.ReferenceIdeal.main_arg5).trans (Cert.ReferenceIdeal.RefValue.arg5_kept m c),
     (h c Cert.ReferenceIdeal.main_arg6).trans (Cert.ReferenceIdeal.RefValue.arg6_kept m c),
     (h c Cert.ReferenceIdeal.main_arg7).trans (Cert.ReferenceIdeal.RefValue.arg7_kept m c),
     (h c Cert.ReferenceIdeal.main_arg8).trans (Cert.ReferenceIdeal.RefValue.arg8_kept m c),
     (h c Cert.ReferenceIdeal.main_arg9).trans (Cert.ReferenceIdeal.RefValue.arg9_kept m c)⟩)
    (Cert.ReferenceIdeal.RunP.run_fold (F := Ideal) m ρ)

/-- From memories agreeing on the arguments both idealized programs end with the network's output on those arguments
    in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Layers.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Value.result_eq m ρ c), (h c).2⟩)
      (Cert.KernelIdeal.Run.run_result (F := Ideal) m ρ)
  · refine (θ_run Cert.ReferenceIdeal.defs _ _).mono (fun _ h c => ⟨?_,
      (h c Cert.ReferenceIdeal.main_arg0).trans (Cert.ReferenceIdeal.RefValue.arg0_kept m' c),
      (h c Cert.ReferenceIdeal.main_arg1).trans (Cert.ReferenceIdeal.RefValue.arg1_kept m' c),
      (h c Cert.ReferenceIdeal.main_arg2).trans (Cert.ReferenceIdeal.RefValue.arg2_kept m' c),
      (h c Cert.ReferenceIdeal.main_arg3).trans (Cert.ReferenceIdeal.RefValue.arg3_kept m' c),
      (h c Cert.ReferenceIdeal.main_arg4).trans (Cert.ReferenceIdeal.RefValue.arg4_kept m' c),
      (h c Cert.ReferenceIdeal.main_arg5).trans (Cert.ReferenceIdeal.RefValue.arg5_kept m' c),
      (h c Cert.ReferenceIdeal.main_arg6).trans (Cert.ReferenceIdeal.RefValue.arg6_kept m' c),
      (h c Cert.ReferenceIdeal.main_arg7).trans (Cert.ReferenceIdeal.RefValue.arg7_kept m' c),
      (h c Cert.ReferenceIdeal.main_arg8).trans (Cert.ReferenceIdeal.RefValue.arg8_kept m' c),
      (h c Cert.ReferenceIdeal.main_arg9).trans (Cert.ReferenceIdeal.RefValue.arg9_kept m' c)⟩)
      (Cert.ReferenceIdeal.RunP.run_fold (F := Ideal) m' ρ')
    refine (h c Cert.ReferenceIdeal.main_v41).trans ((Cert.ReferenceIdeal.RefValue.result_eq m' c).trans ?_)
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

/-- The five claims. -/
theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
